-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x300000 : Shape := ⟨2, ![2, 300000]⟩
abbrev S256x256 : Shape := ⟨2, ![256, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S50000x256 .f32) (main_arg1 : IVec S2x300000 32) (main_arg2 : FVec F S256x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S50000x256 : Shape := ⟨2, ![50000, 256]⟩
abbrev S2x300000 : Shape := ⟨2, ![2, 300000]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S50000 : Shape := ⟨1, ![50000]⟩
abbrev S300000x1 : Shape := ⟨2, ![300000, 1]⟩
abbrev S300000x256 : Shape := ⟨2, ![300000, 256]⟩
abbrev S50000x1 : Shape := ⟨2, ![50000, 1]⟩
abbrev S2000x256 : Shape := ⟨2, ![2000, 256]⟩

abbrev nBuf : Space → Nat
  | .hbm => 104
  | .vmem => 35
  | .smem => 0
  | _ => 0

abbrev bufTy : (tb : Table) → Fin (tcTables nBuf tb) → BufTy
  | .hbm, ⟨0, _⟩ => ⟨S50000x256, .f32⟩
  | .hbm, ⟨1, _⟩ => ⟨S2x300000, .i32⟩
  | .hbm, ⟨2, _⟩ => ⟨S256x256, .f32⟩
  | .hbm, ⟨3, _⟩ => ⟨S1x300000, .i32⟩
  | .hbm, ⟨4, _⟩ => ⟨S300000, .i32⟩
  | .hbm, ⟨5, _⟩ => ⟨S1x300000, .i32⟩
  | .hbm, ⟨6, _⟩ => ⟨S300000, .i32⟩
  | .hbm, ⟨7, _⟩ => ⟨S_, .f32⟩
  | .hbm, ⟨8, _⟩ => ⟨S300000, .f32⟩
  | .hbm, ⟨9, _⟩ => ⟨S_, .f32⟩
  | .hbm, ⟨10, _⟩ => ⟨S50000, .f32⟩
  | .hbm, ⟨11, _⟩ => ⟨S300000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S300000, .i32⟩
  | .hbm, ⟨21, _⟩ => ⟨S300000, .i1⟩
  | .hbm, ⟨22, _⟩ => ⟨S_, .i32⟩
  | .hbm, ⟨23, _⟩ => ⟨S300000, .i32⟩
  | .hbm, ⟨24, _⟩ => ⟨S300000, .i32⟩
  | .hbm, ⟨25, _⟩ => ⟨S300000, .i32⟩
  | .hbm, ⟨26, _⟩ => ⟨S300000x1, .i32⟩
  | .hbm, ⟨27, _⟩ => ⟨S300000x256, .f32⟩
  | .hbm, ⟨28, _⟩ => ⟨S_, .f32⟩
  | .hbm, ⟨29, _⟩ => ⟨S50000x256, .f32⟩
  | .hbm, ⟨30, _⟩ => ⟨S300000x1, .i32⟩
  | .hbm, ⟨31, _⟩ => ⟨S50000x256, .f32⟩
  | .hbm, ⟨32, _⟩ => ⟨S50000x1, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S_, .i32⟩
  | .hbm, ⟨37, _⟩ => ⟨S300000, .i32⟩
  | .hbm, ⟨38, _⟩ => ⟨S300000, .i1⟩
  | .hbm, ⟨39, _⟩ => ⟨S_, .i32⟩
  | .hbm, ⟨40, _⟩ => ⟨S300000, .i32⟩
  | .hbm, ⟨41, _⟩ => ⟨S300000, .i32⟩
  | .hbm, ⟨42, _⟩ => ⟨S300000, .i32⟩
  | .hbm, ⟨43, _⟩ => ⟨S300000x1, .i32⟩
  | .hbm, ⟨44, _⟩ => ⟨S300000x256, .f32⟩
  | .hbm, ⟨45, _⟩ => ⟨S_, .f32⟩
  | .hbm, ⟨46, _⟩ => ⟨S50000x256, .f32⟩
  | .hbm, ⟨47, _⟩ => ⟨S300000x1, .i32⟩
  | .hbm, ⟨48, _⟩ => ⟨S50000x256, .f32⟩
  | .hbm, ⟨49, _⟩ => ⟨S50000x1, .f32⟩
  | .hbm, ⟨50, _⟩ => ⟨S50000x256, .f32⟩
  | .hbm, ⟨51, _⟩ => ⟨S50000x256, .f32⟩
  | .hbm, ⟨52, _⟩ => ⟨S50000x256, .f32⟩
  | .hbm, ⟨53, _⟩ => ⟨S_, .i32⟩
  | .hbm, ⟨54, _⟩ => ⟨S300000, .i32⟩
  | .hbm, ⟨55, _⟩ => ⟨S300000, .i1⟩
  | .hbm, ⟨56, _⟩ => ⟨S_, .i32⟩
  | .hbm, ⟨57, _⟩ => ⟨S300000, .i32⟩
  | .hbm, ⟨58, _⟩ => ⟨S300000, .i32⟩
  | .hbm, ⟨59, _⟩ => ⟨S300000, .i32⟩
  | .hbm, ⟨60, _⟩ => ⟨S300000x1, .i32⟩
  | .hbm, ⟨61, _⟩ => ⟨S300000x256, .f32⟩
  | .hbm, ⟨62, _⟩ => ⟨S_, .f32⟩
  | .hbm, ⟨63, _⟩ => ⟨S50000x256, .f32⟩
  | .hbm, ⟨64, _⟩ => ⟨S300000x1, .i32⟩
  | .hbm, ⟨65, _⟩ => ⟨S50000x256, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .i32⟩
  | .hbm, ⟨71, _⟩ => ⟨S300000, .i32⟩
  | .hbm, ⟨72, _⟩ => ⟨S300000, .i1⟩
  | .hbm, ⟨73, _⟩ => ⟨S_, .i32⟩
  | .hbm, ⟨74, _⟩ => ⟨S300000, .i32⟩
  | .hbm, ⟨75, _⟩ => ⟨S300000, .i32⟩
  | .hbm, ⟨76, _⟩ => ⟨S300000, .i32⟩
  | .hbm, ⟨77, _⟩ => ⟨S300000x1, .i32⟩
  | .hbm, ⟨78, _⟩ => ⟨S300000x256, .f32⟩
  | .hbm, ⟨79, _⟩ => ⟨S_, .f32⟩
  | .hbm, ⟨80, _⟩ => ⟨S50000x256, .f32⟩
  | .hbm, ⟨81, _⟩ => ⟨S300000x1, .i32⟩
  | .hbm, ⟨82, _⟩ => ⟨S50000x256, .f32⟩
  | .hbm, ⟨83, _⟩ => ⟨S50000x1, .f32⟩
  | .hbm, ⟨84, _⟩ => ⟨S50000x256, .f32⟩
  | .hbm, ⟨85, _⟩ => ⟨S50000x256, .f32⟩
  | .hbm, ⟨86, _⟩ => ⟨S50000x256, .f32⟩
  | .hbm, ⟨87, _⟩ => ⟨S_, .i32⟩
  | .hbm, ⟨88, _⟩ => ⟨S300000, .i32⟩
  | .hbm, ⟨89, _⟩ => ⟨S300000, .i1⟩
  | .hbm, ⟨90, _⟩ => ⟨S_, .i32⟩
  | .hbm, ⟨91, _⟩ => ⟨S300000, .i32⟩
  | .hbm, ⟨92, _⟩ => ⟨S300000, .i32⟩
  | .hbm, ⟨93, _⟩ => ⟨S300000, .i32⟩
  | .hbm, ⟨94, _⟩ => ⟨S300000x1, .i32⟩
  | .hbm, ⟨95, _⟩ => ⟨S300000x256, .f32⟩
  | .hbm, ⟨96, _⟩ => ⟨S_, .f32⟩
  | .hbm, ⟨97, _⟩ => ⟨S50000x256, .f32⟩
  | .hbm, ⟨98, _⟩ => ⟨S300000x1, .i32⟩
  | .hbm, ⟨99, _⟩ => ⟨S50000x256, .f32⟩
  | .hbm, ⟨100, _⟩ => ⟨S50000x1, .f32⟩
  | .hbm, ⟨101, _⟩ => ⟨S50000x256, .f32⟩
  | .hbm, ⟨102, _⟩ => ⟨S50000x256, .f32⟩
  | .hbm, ⟨103, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S256x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S256x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S2000x256, .f32⟩
  | .local _ .vmem, ⟨34, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_c_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_11 : Ref sig .tc := ⟨.hbm, 70, rfl⟩
abbrev main_v54 : Ref sig .tc := ⟨.hbm, 71, rfl⟩
abbrev main_v55 : Ref sig .tc := ⟨.hbm, 72, rfl⟩
abbrev main_c_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_13 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_c_14 : Ref sig .tc := ⟨.hbm, 87, rfl⟩
abbrev main_v68 : Ref sig .tc := ⟨.hbm, 88, rfl⟩
abbrev main_v69 : Ref sig .tc := ⟨.hbm, 89, rfl⟩
abbrev main_c_15 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S_S50000 : S_.BroadcastsInDim S50000 (![] : Fin 0 → Fin S50000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  scatter_S50000_S300000x1_S300000_n_0_0_1_wf : ScatterDims.WF S50000 S300000x1 S300000 [] [0] [0] 1
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)

variable [Facts₀]

def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg2) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x300000 : Shape := ⟨2, ![2, 300000]⟩
abbrev S256x256 : Shape := ⟨2, ![256, 256]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S50000 : Shape := ⟨1, ![50000]⟩
abbrev S50000x1 : Shape := ⟨2, ![50000, 1]⟩

abbrev nBuf : Space → Nat
  | .hbm => 203
  | .vmem => 0
  | .smem => 0
  | _ => 0

abbrev hbmTy0_0 (i : Nat) : BufTy := match i % 128 with
  | 0 => ⟨S50000x256, .f32⟩
  | 1 => ⟨S2x300000, .i32⟩
  | 2 => ⟨S256x256, .f32⟩
  | 3 => ⟨S1x300000, .i32⟩
  | 4 => ⟨S300000, .i32⟩
  | 5 => ⟨S1x300000, .i32⟩
  | 6 => ⟨S300000, .i32⟩
  | 7 => ⟨S_, .i32⟩
  | 8 => ⟨S300000, .i32⟩
  | 9 => ⟨S300000, .i1⟩
  | 10 => ⟨S_, .i32⟩
  | 11 => ⟨S300000, .i32⟩
  | 12 => ⟨S300000, .i32⟩
  | 13 => ⟨S300000, .i32⟩
  | 14 => ⟨S300000x1, .i32⟩
  | 15 => ⟨S300000x256, .f32⟩
  | 16 => ⟨S_, .f32⟩
  | 17 => ⟨S50000x256, .f32⟩
  | 18 => ⟨S300000x1, .i32⟩
  | 19 => ⟨S50000x256, .f32⟩
  | 20 => ⟨S_, .f32⟩
  | 21 => ⟨S300000, .f32⟩
  | 22 => ⟨S_, .f32⟩
  | 23 => ⟨S50000, .f32⟩
  | 24 => ⟨S300000x1, .i32⟩
  | 25 => ⟨S50000, .f32⟩
  | 26 => ⟨S_, .f32⟩
  | 27 => ⟨S50000, .f32⟩
  | 28 => ⟨S50000, .f32⟩
  | 29 => ⟨S50000x1, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S1x300000, .i32⟩
  | 44 => ⟨S300000, .i32⟩
  | 45 => ⟨S1x300000, .i32⟩
  | 46 => ⟨S300000, .i32⟩
  | 47 => ⟨S_, .i32⟩
  | 48 => ⟨S300000, .i32⟩
  | 49 => ⟨S300000, .i1⟩
  | 50 => ⟨S_, .i32⟩
  | 51 => ⟨S300000, .i32⟩
  | 52 => ⟨S300000, .i32⟩
  | 53 => ⟨S300000, .i32⟩
  | 54 => ⟨S300000x1, .i32⟩
  | 55 => ⟨S300000x256, .f32⟩
  | 56 => ⟨S_, .f32⟩
  | 57 => ⟨S50000x256, .f32⟩
  | 58 => ⟨S300000x1, .i32⟩
  | 59 => ⟨S50000x256, .f32⟩
  | 60 => ⟨S_, .f32⟩
  | 61 => ⟨S300000, .f32⟩
  | 62 => ⟨S_, .f32⟩
  | 63 => ⟨S50000, .f32⟩
  | 64 => ⟨S300000x1, .i32⟩
  | 65 => ⟨S50000, .f32⟩
  | 66 => ⟨S_, .f32⟩
  | 67 => ⟨S50000, .f32⟩
  | 68 => ⟨S50000, .f32⟩
  | 69 => ⟨S50000x1, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S50000x256, .f32⟩
  | 79 => ⟨S50000x256, .f32⟩
  | 80 => ⟨S_, .f32⟩
  | 81 => ⟨S50000x256, .f32⟩
  | 82 => ⟨S50000x256, .f32⟩
  | 83 => ⟨S1x300000, .i32⟩
  | 84 => ⟨S300000, .i32⟩
  | 85 => ⟨S1x300000, .i32⟩
  | 86 => ⟨S300000, .i32⟩
  | 87 => ⟨S_, .i32⟩
  | 88 => ⟨S300000, .i32⟩
  | 89 => ⟨S300000, .i1⟩
  | 90 => ⟨S_, .i32⟩
  | 91 => ⟨S300000, .i32⟩
  | 92 => ⟨S300000, .i32⟩
  | 93 => ⟨S300000, .i32⟩
  | 94 => ⟨S300000x1, .i32⟩
  | 95 => ⟨S300000x256, .f32⟩
  | 96 => ⟨S_, .f32⟩
  | 97 => ⟨S50000x256, .f32⟩
  | 98 => ⟨S300000x1, .i32⟩
  | 99 => ⟨S50000x256, .f32⟩
  | 100 => ⟨S_, .f32⟩
  | 101 => ⟨S300000, .f32⟩
  | 102 => ⟨S_, .f32⟩
  | 103 => ⟨S50000, .f32⟩
  | 104 => ⟨S300000x1, .i32⟩
  | 105 => ⟨S50000, .f32⟩
  | 106 => ⟨S_, .f32⟩
  | 107 => ⟨S50000, .f32⟩
  | 108 => ⟨S50000, .f32⟩
  | 109 => ⟨S50000x1, .f32⟩
  | 110 => ⟨S50000x256, .f32⟩
  | 111 => ⟨S50000x256, .f32⟩
  | 112 => ⟨S_, .f32⟩
  | 113 => ⟨S50000x256, .f32⟩
  | 114 => ⟨S50000x256, .f32⟩
  | 115 => ⟨S_, .f32⟩
  | 116 => ⟨S50000x256, .f32⟩
  | 117 => ⟨S50000x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S1x300000, .i32⟩
  | 124 => ⟨S300000, .i32⟩
  | 125 => ⟨S1x300000, .i32⟩
  | 126 => ⟨S300000, .i32⟩
  | 127 => ⟨S_, .i32⟩
  | _ => ⟨S50000x256, .f32⟩

abbrev hbmTy0_1 (i : Nat) : BufTy := match i % 128 with
  | 0 => ⟨S300000, .i32⟩
  | 1 => ⟨S300000, .i1⟩
  | 2 => ⟨S_, .i32⟩
  | 3 => ⟨S300000, .i32⟩
  | 4 => ⟨S300000, .i32⟩
  | 5 => ⟨S300000, .i32⟩
  | 6 => ⟨S300000x1, .i32⟩
  | 7 => ⟨S300000x256, .f32⟩
  | 8 => ⟨S_, .f32⟩
  | 9 => ⟨S50000x256, .f32⟩
  | 10 => ⟨S300000x1, .i32⟩
  | 11 => ⟨S50000x256, .f32⟩
  | 12 => ⟨S_, .f32⟩
  | 13 => ⟨S300000, .f32⟩
  | 14 => ⟨S_, .f32⟩
  | 15 => ⟨S50000, .f32⟩
  | 16 => ⟨S300000x1, .i32⟩
  | 17 => ⟨S50000, .f32⟩
  | 18 => ⟨S_, .f32⟩
  | 19 => ⟨S50000, .f32⟩
  | 20 => ⟨S50000, .f32⟩
  | 21 => ⟨S50000x1, .f32⟩
  | 22 => ⟨S50000x256, .f32⟩
  | 23 => ⟨S50000x256, .f32⟩
  | 24 => ⟨S_, .f32⟩
  | 25 => ⟨S50000x256, .f32⟩
  | 26 => ⟨S50000x256, .f32⟩
  | 27 => ⟨S_, .f32⟩
  | 28 => ⟨S50000x256, .f32⟩
  | 29 => ⟨S50000x256, .f32⟩
  | 30 => ⟨S50000x256, .f32⟩
  | 31 => ⟨S50000x256, .f32⟩
  | 32 => ⟨S_, .f32⟩
  | 33 => ⟨S50000x256, .f32⟩
  | 34 => ⟨S50000x256, .f32⟩
  | 35 => ⟨S1x300000, .i32⟩
  | 36 => ⟨S300000, .i32⟩
  | 37 => ⟨S1x300000, .i32⟩
  | 38 => ⟨S300000, .i32⟩
  | 39 => ⟨S_, .i32⟩
  | 40 => ⟨S300000, .i32⟩
  | 41 => ⟨S300000, .i1⟩
  | 42 => ⟨S_, .i32⟩
  | 43 => ⟨S300000, .i32⟩
  | 44 => ⟨S300000, .i32⟩
  | 45 => ⟨S300000, .i32⟩
  | 46 => ⟨S300000x1, .i32⟩
  | 47 => ⟨S300000x256, .f32⟩
  | 48 => ⟨S_, .f32⟩
  | 49 => ⟨S50000x256, .f32⟩
  | 50 => ⟨S300000x1, .i32⟩
  | 51 => ⟨S50000x256, .f32⟩
  | 52 => ⟨S_, .f32⟩
  | 53 => ⟨S300000, .f32⟩
  | 54 => ⟨S_, .f32⟩
  | 55 => ⟨S50000, .f32⟩
  | 56 => ⟨S300000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x256, .f32⟩
  | 63 => ⟨S50000x256, .f32⟩
  | 64 => ⟨S_, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x256, .f32⟩
  | 71 => ⟨S50000x256, .f32⟩
  | 72 => ⟨S_, .f32⟩
  | 73 => ⟨S50000x256, .f32⟩
  | 74 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call1_cst : Ref sig .tc := ⟨.hbm, 80, rfl⟩
abbrev main_call1_v0 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_14 : Ref sig .tc := ⟨.hbm, 87, rfl⟩
abbrev main_v64 : Ref sig .tc := ⟨.hbm, 88, rfl⟩
abbrev main_v65 : Ref sig .tc := ⟨.hbm, 89, rfl⟩
abbrev main_c_15 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_17 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_19 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_20 : Ref sig .tc := ⟨.hbm, 112, rfl⟩
abbrev main_v83 : Ref sig .tc := ⟨.hbm, 113, rfl⟩
abbrev main_v84 : Ref sig .tc := ⟨.hbm, 114, rfl⟩
abbrev main_cst_21 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call2_cst : Ref sig .tc := ⟨.hbm, 120, rfl⟩
abbrev main_call2_v0 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_c_22 : Ref sig .tc := ⟨.hbm, 127, rfl⟩
abbrev main_v94 : Ref sig .tc := ⟨.hbm, 128, rfl⟩
abbrev main_v95 : Ref sig .tc := ⟨.hbm, 129, rfl⟩
abbrev main_c_23 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_24 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_25 : Ref sig .tc := ⟨.hbm, 140, rfl⟩
abbrev main_v104 : Ref sig .tc := ⟨.hbm, 141, rfl⟩
abbrev main_cst_26 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_27 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_28 : Ref sig .tc := ⟨.hbm, 152, rfl⟩
abbrev main_v113 : Ref sig .tc := ⟨.hbm, 153, rfl⟩
abbrev main_v114 : Ref sig .tc := ⟨.hbm, 154, rfl⟩
abbrev main_cst_29 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_call3_cst : Ref sig .tc := ⟨.hbm, 160, rfl⟩
abbrev main_call3_v0 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_30 : Ref sig .tc := ⟨.hbm, 167, rfl⟩
abbrev main_v124 : Ref sig .tc := ⟨.hbm, 168, rfl⟩
abbrev main_v125 : Ref sig .tc := ⟨.hbm, 169, rfl⟩
abbrev main_c_31 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_32 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_33 : Ref sig .tc := ⟨.hbm, 180, rfl⟩
abbrev main_v134 : Ref sig .tc := ⟨.hbm, 181, rfl⟩
abbrev main_cst_34 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_35 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_36 : Ref sig .tc := ⟨.hbm, 192, rfl⟩
abbrev main_v143 : Ref sig .tc := ⟨.hbm, 193, rfl⟩
abbrev main_v144 : Ref sig .tc := ⟨.hbm, 194, rfl⟩
abbrev main_cst_37 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_call4_cst : Ref sig .tc := ⟨.hbm, 200, rfl⟩
abbrev main_call4_v0 : Ref sig .tc := ⟨.hbm, 201, rfl⟩
abbrev main_v149 : Ref sig .tc := ⟨.hbm, 202, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel program's run, with its result array named.

  The program is five kernel launches among stretches of host operations. Its generated frame run already carries, at the
  end, every buffer that outlives a launch at the contents of the last segment boundary (`Gen.W10`: the fold of the host
  stretches and of the launches' write-backs over the launch memory). Here that same run is read once more at the
  program's result buffer: every weakly fair execution terminates with the result at `Gen.W10`'s value there and the
  argument arrays as launched. What that value IS, as a function of the arguments, is the business of the modules
  that read the fold.
-/
import proofs.«107420_j10050223473328_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_fold : θ_run defs (onTc (τ := τ) (main (F := F))) ⟨m, fun _ => 0, ρ⟩ (fun r => ∀ c : Dev nD,
      r.2.mem ((c.tc : Thread nD τ).loc main_v81) = W10 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v81 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c)⟩)

end Cert.KernelIdeal.Whole

end
-- ==== Proof.Agg.lean ====
/-
  Mean aggregation over the edge list, as whole-array functions, and the one law that joins its two spellings.

  From the edge array `e` (two rows of 300000 node numbers) the programs read the source nodes `srcOf e` and the
  destination nodes `dstOf e`. The NEIGHBOUR SUM of a feature array `X` gathers row `src[k]` of `X` for every edge `k`
  (a negative node number counted from the end, as indexing does) and adds it into row `dst[k]` of a zero array. The
  CLAMPED DEGREE of a node is the number of edges that end in it, at least one: `max (Σ ones) 1`.

  The mean is spelt two ways: the neighbour sum TIMES the reciprocal `1 / degree` spread over the row (`aggMul`), or the
  neighbour sum DIVIDED BY the degree spread over the row (`aggDiv`). On the extended reals `s · (1 / d) = s / d` for every
  `s` as soon as `d ≠ 0`, and a clamped degree is at least one: the two are one array (`aggMul_eq_aggDiv`), whatever
  the gather and the scatter-add compute — neither is opened here.
-/
import proofs.«107420_j10050223473328_1_alg».proof.Proof.Gen.KernelIdeal
import Idealize.ShloMosaic.Lib.Pipeline.Value
import Idealize.ShloMosaic.Lib.ValueIdx
import Idealize.ShloMosaic.Lib.IdealHost

noncomputable section

namespace Cert.Gcn

open Idealize.ShloMosaic Idealize.ShloMosaic.ValueIdx
open Cert.KernelIdeal Cert.KernelIdeal.Facts₀

section AnyInstance

variable {F : FTy → Type} [FloatOps F]

/-- The source nodes: row 0 of the edge array. -/
def srcOf (e : (⟨S2x300000, .i32⟩ : BufTy).Contents (Elt F)) : (⟨S300000, .i32⟩ : BufTy).Contents (Elt F) :=
  shapeCast _ (extractStridedSlice S1x300000 ![0, 0] e slices_S2x300000_S1x300000_0_0) shapeCasts_S1x300000_S300000

/-- The destination nodes: row 1 of the edge array. -/
def dstOf (e : (⟨S2x300000, .i32⟩ : BufTy).Contents (Elt F)) : (⟨S300000, .i32⟩ : BufTy).Contents (Elt F) :=
  shapeCast _ (extractStridedSlice S1x300000 ![1, 0] e slices_S2x300000_S1x300000_1_0) shapeCasts_S1x300000_S300000

/-- The neighbour sum: rows of `X` gathered at the source nodes, added into a zero array at the destination nodes. -/
def neighbourSum (X : (⟨S50000x256, .f32⟩ : BufTy).Contents (Elt F)) (s d : (⟨S300000, .i32⟩ : BufTy).Contents (Elt F)) :
    (⟨S50000x256, .f32⟩ : BufTy).Contents (Elt F) :=
  Host.scatterAdd scatter_S50000x256_S300000x1_S300000x256_1_0_0_1
    (broadcastInDim S50000x256 ![] bcast_S_S50000x256 (constant S_ .f32 0x00000000#32))
    (broadcastInDim S300000x1 ![0] bcast_S300000_S300000x1_0 d)
    (Host.gather gather_S50000x256_S300000x1_S300000x256_1_0_n_n_0_1_1256 X
      (broadcastInDim S300000x1 ![0] bcast_S300000_S300000x1_0
        (select (cmpi .slt s (broadcastInDim S300000 ![] bcast_S_S300000 (constantI S_ 32 0#32)))
          (addi s (broadcastInDim S300000 ![] bcast_S_S300000 (constantI S_ 32 50000#32))) s)))

/-- The clamped degree: the count of edges ending in each node, at least one. -/
def degOf (d : (⟨S300000, .i32⟩ : BufTy).Contents (Elt F)) : (⟨S50000, .f32⟩ : BufTy).Contents (Elt F) :=
  maximumf
    (Host.scatterAdd scatter_S50000_S300000x1_S300000_n_0_0_1
      (broadcastInDim S50000 ![] bcast_S_S50000 (constant S_ .f32 0x00000000#32))
      (broadcastInDim S300000x1 ![0] bcast_S300000_S300000x1_0 d)
      (broadcastInDim S300000 ![] bcast_S_S300000 (constant S_ .f32 0x3F800000#32)))
    (broadcastInDim S50000 ![] bcast_S_S50000 (constant S_ .f32 0x3F800000#32))

/-- The reciprocal of the clamped degree. -/
def invDegOf (d : (⟨S300000, .i32⟩ : BufTy).Contents (Elt F)) : (⟨S50000, .f32⟩ : BufTy).Contents (Elt F) :=
  Host.divf (broadcastInDim S50000 ![] bcast_S_S50000 (constant S_ .f32 0x3F800000#32)) (degOf d)

/-- A per-node quantity spread over the node's row. -/
def spread (v : (⟨S50000, .f32⟩ : BufTy).Contents (Elt F)) : (⟨S50000x256, .f32⟩ : BufTy).Contents (Elt F) :=
  broadcastInDim S50000x256 ![0, 1] bcast_S50000x1_S50000x256_0_1 (broadcastInDim S50000x1 ![0] bcast_S50000_S50000x1_0 v)

/-- The mean as a product with a per-node factor `f`. -/
def aggMul (X : (⟨S50000x256, .f32⟩ : BufTy).Contents (Elt F)) (s d : (⟨S300000, .i32⟩ : BufTy).Contents (Elt F))
    (f : (⟨S50000, .f32⟩ : BufTy).Contents (Elt F)) : (⟨S50000x256, .f32⟩ : BufTy).Contents (Elt F) :=
  mulf (neighbourSum X s d) (spread f)

/-- The mean as a quotient by a per-node divisor `g`. -/
def aggDiv (X : (⟨S50000x256, .f32⟩ : BufTy).Contents (Elt F)) (s d : (⟨S300000, .i32⟩ : BufTy).Contents (Elt F))
    (g : (⟨S50000, .f32⟩ : BufTy).Contents (Elt F)) : (⟨S50000x256, .f32⟩ : BufTy).Contents (Elt F) :=
  Host.divf (neighbourSum X s d) (spread g)

/-- The row of an entry, as an index of a per-node array. -/
abbrev rowOf (i : S50000x256.Idx) : S50000.Idx := fun a => match a with
  | ⟨0, _⟩ => ⟨(i 0).val, (i 0).isLt⟩

/-- A spread quantity, read at an entry, is the quantity at the entry's row. -/
theorem spread_apply (v : (⟨S50000, .f32⟩ : BufTy).Contents (Elt F)) (i : S50000x256.Idx) : spread v i = v (rowOf i) := by
  unfold spread
  let mid : S50000x1.Idx := fun a => match a with
    | ⟨0, _⟩ => ⟨(i 0).val, (i 0).isLt⟩
    | ⟨1, _⟩ => ⟨0, Nat.one_pos⟩
  refine (broadcastInDim_apply _ bcast_S50000x1_S50000x256_0_1 _ i mid (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ bcast_S50000_S50000x1_0 v mid (rowOf i) (fun a => match a with
    | ⟨0, _⟩ => by show (i 0).val = if (50000 : Nat) = 1 then 0 else (i 0).val; rw [if_neg (by decide)])

end AnyInstance

/-! ## On the extended reals -/

/-- A host quotient of two arrays, read at an index. -/
theorem hostDivf_apply {s : Shape} (a b : FVec Ideal s .f32) (i : s.Idx) : Host.divf a b i = Ideal.div (a i) (b i) := rfl

/-- The per-node array of ones reads the extended real one everywhere. -/
theorem ones_apply (j : S50000.Idx) :
    broadcastInDim S50000 ![] bcast_S_S50000 (constant (F := Ideal) S_ .f32 0x3F800000#32) j = 1 :=
  (broadcastInDim_apply _ bcast_S_S50000 (constant (F := Ideal) S_ .f32 0x3F800000#32) j ix0 (fun a => a.elim0)).trans
    Ideal.ofBits_one_f32

/-- A product with the reciprocal is the quotient, off a zero divisor. -/
theorem mul_div_one (s y : EReal) (hy : y ≠ 0) : s * Ideal.div 1 y = Ideal.div s y := by
  unfold Ideal.div
  rw [if_neg hy, if_neg hy, one_mul]

/-- A maximum with one is not zero. -/
theorem max_one_ne_zero (x : EReal) : max x 1 ≠ 0 := by
  intro h
  have h1 : (1 : EReal) ≤ 0 := h ▸ le_max_right x 1
  exact absurd h1 (by norm_num)

/-- A clamped degree is not zero: it is at least one. -/
theorem degOf_ne_zero (d : (⟨S300000, .i32⟩ : BufTy).Contents (Elt Ideal)) (j : S50000.Idx) : degOf (F := Ideal) d j ≠ 0 := by
  unfold degOf
  rw [maximumf_apply, ones_apply]
  exact max_one_ne_zero _

/-- THE LAW: the mean by the reciprocal of the clamped degree is the mean by the clamped degree. -/
theorem aggMul_eq_aggDiv (X : (⟨S50000x256, .f32⟩ : BufTy).Contents (Elt Ideal)) (s d d' : (⟨S300000, .i32⟩ : BufTy).Contents (Elt Ideal)) :
    aggMul (F := Ideal) X s d (invDegOf d') = aggDiv X s d (degOf d') := by
  funext i
  unfold aggMul aggDiv
  refine (mulf_apply _ _ i).trans ?_
  refine Eq.trans ?_ (hostDivf_apply _ _ i).symm
  rw [spread_apply, spread_apply]
  unfold invDegOf
  rw [hostDivf_apply, ones_apply]
  exact mul_div_one _ _ (degOf_ne_zero d' _)

end Cert.Gcn

end
-- ==== Proof.Stretches.lean ====
/-
  The host stretches between the launches, for any buffer contents they start from.

  Stretch 0 (before the first launch) reads the edge array once: the source nodes, the destination nodes, the
  reciprocal of the clamped degree — three arrays every later stretch reads again — and the first mean aggregation,
  of the initial features. Each later stretch `k` computes the mean aggregation of the previous launch's output with
  the same three arrays and writes nothing else that a later segment reads. So, for ANY contents `W` a stretch starts from:
  the aggregated array it leaves is `aggMul` of what `W` holds at the previous output and at the three arrays, and the
  five long-lived arrays (initial features, weights, sources, destinations, reciprocal degree) are left as `W` had them.
-/
import proofs.«107420_j10050223473328_1_alg».proof.Proof.Gen.KernelIdeal.Launch
import proofs.«107420_j10050223473328_1_alg».proof.Proof.Agg
import Idealize.ShloMosaic.Lib.StableHlo.Run

set_option maxRecDepth 16384

noncomputable section

namespace Cert.KernelIdeal.Whole

open Cert.KernelIdeal Cert.KernelIdeal.Gen Cert.Gcn
open Idealize.ShloMosaic Idealize.ShloMosaic.TcCoe Idealize.SL.Sem Idealize.ShloMosaic.StableHlo

variable {F : FTy → Type} [FloatOps F]

/-- The five arrays every segment after stretch 0 reads and none writes, at given contents. -/
structure Kept (W : Valuation τ sig (Elt F))
    (x0 : (⟨S50000x256, .f32⟩ : BufTy).Contents (Elt F)) (wt : (⟨S256x256, .f32⟩ : BufTy).Contents (Elt F))
    (s d : (⟨S300000, .i32⟩ : BufTy).Contents (Elt F)) (f : (⟨S50000, .f32⟩ : BufTy).Contents (Elt F)) : Prop where
  feat : W (Proc.devRef .tc main_arg0) = x0
  weights : W (Proc.devRef .tc main_arg2) = wt
  src : W (Proc.devRef .tc main_v1) = s
  dst : W (Proc.devRef .tc main_v3) = d
  inv : W (Proc.devRef .tc main_v11) = f

/-- A buffer no operation of a stretch writes is left as the stretch found it. -/
macro "not_written" : tactic => `(tactic| (
  refine StableHlo.after_of_forall_not_mem _ _ (List.forall_iff_forall_mem.mp ?_)
  simp only [hostOps0, hostOps1, hostOps2, hostOps3, hostOps4, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

/-! ## Stretch 0 -/

section Stretch0
variable (W : Valuation τ sig (Elt F))

theorem s0_feat : StableHlo.after hostOps0 W (Proc.devRef .tc main_arg0) = W (Proc.devRef .tc main_arg0) := by not_written
theorem s0_weights : StableHlo.after hostOps0 W (Proc.devRef .tc main_arg2) = W (Proc.devRef .tc main_arg2) := by not_written
theorem s0_src : StableHlo.after hostOps0 W (Proc.devRef .tc main_v1) = srcOf (W (Proc.devRef .tc main_arg1)) := by
  after_results_simp <;> rfl
theorem s0_dst : StableHlo.after hostOps0 W (Proc.devRef .tc main_v3) = dstOf (W (Proc.devRef .tc main_arg1)) := by
  after_results_simp <;> rfl
theorem s0_inv : StableHlo.after hostOps0 W (Proc.devRef .tc main_v11) = invDegOf (dstOf (W (Proc.devRef .tc main_arg1))) := by
  after_results_simp <;> rfl
theorem s0_agg : StableHlo.after hostOps0 W (Proc.devRef .tc main_v24)
    = aggMul (W (Proc.devRef .tc main_arg0)) (srcOf (W (Proc.devRef .tc main_arg1))) (dstOf (W (Proc.devRef .tc main_arg1)))
        (invDegOf (dstOf (W (Proc.devRef .tc main_arg1)))) := by
  after_results_simp <;> rfl

/-- After stretch 0 the five long-lived arrays are the arguments' and the edge array's three readings. -/
theorem kept0 : Kept (StableHlo.after hostOps0 W) (W (Proc.devRef .tc main_arg0)) (W (Proc.devRef .tc main_arg2))
    (srcOf (W (Proc.devRef .tc main_arg1))) (dstOf (W (Proc.devRef .tc main_arg1))) (invDegOf (dstOf (W (Proc.devRef .tc main_arg1)))) :=
  ⟨s0_feat W, s0_weights W, s0_src W, s0_dst W, s0_inv W⟩

end Stretch0

/-! ## Stretch 1 -/

section Stretch1
variable (W : Valuation τ sig (Elt F))

theorem s1_agg : StableHlo.after hostOps1 W (Proc.devRef .tc main_v38)
    = aggMul (W (Proc.devRef .tc main_v25)) (W (Proc.devRef .tc main_v1)) (W (Proc.devRef .tc main_v3)) (W (Proc.devRef .tc main_v11)) := by
  after_results_simp <;> rfl

/-- Stretch 1 leaves the five long-lived arrays as it found them. -/
theorem kept_s1 {x0 wt s d f} (h : Kept W x0 wt s d f) : Kept (StableHlo.after hostOps1 W) x0 wt s d f :=
  ⟨(by not_written : StableHlo.after hostOps1 W (Proc.devRef .tc main_arg0) = W (Proc.devRef .tc main_arg0)).trans h.feat,
   (by not_written : StableHlo.after hostOps1 W (Proc.devRef .tc main_arg2) = W (Proc.devRef .tc main_arg2)).trans h.weights,
   (by not_written : StableHlo.after hostOps1 W (Proc.devRef .tc main_v1) = W (Proc.devRef .tc main_v1)).trans h.src,
   (by not_written : StableHlo.after hostOps1 W (Proc.devRef .tc main_v3) = W (Proc.devRef .tc main_v3)).trans h.dst,
   (by not_written : StableHlo.after hostOps1 W (Proc.devRef .tc main_v11) = W (Proc.devRef .tc main_v11)).trans h.inv⟩

end Stretch1

/-! ## Stretch 2 -/

section Stretch2
variable (W : Valuation τ sig (Elt F))

theorem s2_agg : StableHlo.after hostOps2 W (Proc.devRef .tc main_v52)
    = aggMul (W (Proc.devRef .tc main_v39)) (W (Proc.devRef .tc main_v1)) (W (Proc.devRef .tc main_v3)) (W (Proc.devRef .tc main_v11)) := by
  after_results_simp <;> rfl

/-- Stretch 2 leaves the five long-lived arrays as it found them. -/
theorem kept_s2 {x0 wt s d f} (h : Kept W x0 wt s d f) : Kept (StableHlo.after hostOps2 W) x0 wt s d f :=
  ⟨(by not_written : StableHlo.after hostOps2 W (Proc.devRef .tc main_arg0) = W (Proc.devRef .tc main_arg0)).trans h.feat,
   (by not_written : StableHlo.after hostOps2 W (Proc.devRef .tc main_arg2) = W (Proc.devRef .tc main_arg2)).trans h.weights,
   (by not_written : StableHlo.after hostOps2 W (Proc.devRef .tc main_v1) = W (Proc.devRef .tc main_v1)).trans h.src,
   (by not_written : StableHlo.after hostOps2 W (Proc.devRef .tc main_v3) = W (Proc.devRef .tc main_v3)).trans h.dst,
   (by not_written : StableHlo.after hostOps2 W (Proc.devRef .tc main_v11) = W (Proc.devRef .tc main_v11)).trans h.inv⟩

end Stretch2

/-! ## Stretch 3 -/

section Stretch3
variable (W : Valuation τ sig (Elt F))

theorem s3_agg : StableHlo.after hostOps3 W (Proc.devRef .tc main_v66)
    = aggMul (W (Proc.devRef .tc main_v53)) (W (Proc.devRef .tc main_v1)) (W (Proc.devRef .tc main_v3)) (W (Proc.devRef .tc main_v11)) := by
  after_results_simp <;> rfl

/-- Stretch 3 leaves the five long-lived arrays as it found them. -/
theorem kept_s3 {x0 wt s d f} (h : Kept W x0 wt s d f) : Kept (StableHlo.after hostOps3 W) x0 wt s d f :=
  ⟨(by not_written : StableHlo.after hostOps3 W (Proc.devRef .tc main_arg0) = W (Proc.devRef .tc main_arg0)).trans h.feat,
   (by not_written : StableHlo.after hostOps3 W (Proc.devRef .tc main_arg2) = W (Proc.devRef .tc main_arg2)).trans h.weights,
   (by not_written : StableHlo.after hostOps3 W (Proc.devRef .tc main_v1) = W (Proc.devRef .tc main_v1)).trans h.src,
   (by not_written : StableHlo.after hostOps3 W (Proc.devRef .tc main_v3) = W (Proc.devRef .tc main_v3)).trans h.dst,
   (by not_written : StableHlo.after hostOps3 W (Proc.devRef .tc main_v11) = W (Proc.devRef .tc main_v11)).trans h.inv⟩

end Stretch3

/-! ## Stretch 4 -/

section Stretch4
variable (W : Valuation τ sig (Elt F))

theorem s4_agg : StableHlo.after hostOps4 W (Proc.devRef .tc main_v80)
    = aggMul (W (Proc.devRef .tc main_v67)) (W (Proc.devRef .tc main_v1)) (W (Proc.devRef .tc main_v3)) (W (Proc.devRef .tc main_v11)) := by
  after_results_simp <;> rfl

/-- Stretch 4 leaves the five long-lived arrays as it found them. -/
theorem kept_s4 {x0 wt s d f} (h : Kept W x0 wt s d f) : Kept (StableHlo.after hostOps4 W) x0 wt s d f :=
  ⟨(by not_written : StableHlo.after hostOps4 W (Proc.devRef .tc main_arg0) = W (Proc.devRef .tc main_arg0)).trans h.feat,
   (by not_written : StableHlo.after hostOps4 W (Proc.devRef .tc main_arg2) = W (Proc.devRef .tc main_arg2)).trans h.weights,
   (by not_written : StableHlo.after hostOps4 W (Proc.devRef .tc main_v1) = W (Proc.devRef .tc main_v1)).trans h.src,
   (by not_written : StableHlo.after hostOps4 W (Proc.devRef .tc main_v3) = W (Proc.devRef .tc main_v3)).trans h.dst,
   (by not_written : StableHlo.after hostOps4 W (Proc.devRef .tc main_v11) = W (Proc.devRef .tc main_v11)).trans h.inv⟩

end Stretch4

end Cert.KernelIdeal.Whole

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.Layer.lean ====
/-
  One graph-convolution layer, entry by entry.

  A layer takes the initial features `x`, the aggregated neighbour features `a` (both `n × 256`) and the weight
  matrix `w` (`256 × 256`), mixes the two feature arrays with the weights `α` and `β` (the single-precision
  words nearest 0.1 and 0.9), multiplies the mix by `w` and clamps at zero:
  entry `(r, q)` is `max (Σ_k (α·x[r,k] + β·a[r,k]) · w[k,q]) 0` on the extended reals.
  Row `r` of the result depends on row `r` of `x` and of `a` only, which is why a row block of the result is the
  same function of the row blocks.

  Here: that function (`mixAt`, `mix`), and the kernel body's stored value read at an entry — a change of float
  format is the identity on the extended reals, and a matrix product into a zero accumulator is the plain sum.
-/
import proofs.«107420_j10050223473328_1_alg».proof.Proof.Gen.KernelIdeal.Skeleton
import proofs.«107420_j10050223473328_1_alg».proof.Proof.LibPlainDot
import Idealize.ShloMosaic.Lib.ValueIdx
import Idealize.ShloMosaic.Lib.Pipeline.Value

noncomputable section

namespace Cert.Gcn

open Idealize.ShloMosaic Idealize.ShloMosaic.ValueIdx

/-- The weight of the initial features: the single-precision word nearest 0.1. -/
abbrev cα : EReal := Ideal.ofBits .f32 0x3DCCCCCD#32
/-- The weight of the aggregated features: the single-precision word nearest 0.9. -/
abbrev cβ : EReal := Ideal.ofBits .f32 0x3F666666#32
/-- The clamp's floor: the zero word. -/
abbrev c0 : EReal := Ideal.ofBits .f32 0x00000000#32

/-- Entry `(r, q)` of a layer's output over `n` rows. -/
def mixAt {n : Nat} (x a : (⟨2, ![n, 256]⟩ : Shape).Idx → EReal) (w : (⟨2, ![256, 256]⟩ : Shape).Idx → EReal)
    (r : Fin n) (q : Fin 256) : EReal :=
  max (∑ k : Fin 256, (cα * x (ix2 r k) + cβ * a (ix2 r k)) * w (ix2 k q)) c0

/-- A layer's output over `n` rows, as one array. -/
def mix {n : Nat} (x a : (⟨2, ![n, 256]⟩ : Shape).Idx → EReal) (w : (⟨2, ![256, 256]⟩ : Shape).Idx → EReal) :
    (⟨2, ![n, 256]⟩ : Shape).Idx → EReal :=
  fun i => mixAt x a w (i 0) (i 1)

theorem mix_ix2 {n : Nat} (x a : (⟨2, ![n, 256]⟩ : Shape).Idx → EReal) (w : (⟨2, ![256, 256]⟩ : Shape).Idx → EReal)
    (r : Fin n) (q : Fin 256) : mix x a w (ix2 r q) = mixAt x a w r q := rfl

section Body

open Cert.KernelIdeal Cert.KernelIdeal.Gen

/-- The printed dimension numbers of the body's matrix product are the plain ones. -/
theorem dot_plain : dot_S2000x256_S256x256_S2000x256_1_0_0_1_n_n = DotDims.plain 2000 256 256 := rfl

/-- THE BODY'S STORED VALUE at entry `(p, q)` of a block: the layer's entry of the loaded blocks. -/
theorem pay0_apply (xb ab : Vec Ideal S2000x256 .f32) (wb : Vec Ideal S256x256 .f32) (p : Fin 2000) (q : Fin 256) :
    k0_pay1 (F := Ideal) xb ab wb (ix2 p q) = mixAt xb ab wb p q := by
  unfold k0_pay1
  rw [shapeCast_self ab, dot_plain]
  refine (maximumf_apply _ _ (ix2 p q)).trans ?_
  refine congrArg (max · c0) ?_
  refine (Cert.Lib.plain_matmul_zero_apply 2000 256 256 none _ _ p q).trans ?_
  rfl

/-- The five launches run the same body. -/
theorem pay1_eq (xb ab : Vec Ideal S2000x256 .f32) (wb : Vec Ideal S256x256 .f32) :
    k1_pay1 (F := Ideal) xb ab wb = k0_pay1 xb ab wb := rfl
theorem pay2_eq (xb ab : Vec Ideal S2000x256 .f32) (wb : Vec Ideal S256x256 .f32) :
    k2_pay1 (F := Ideal) xb ab wb = k0_pay1 xb ab wb := rfl
theorem pay3_eq (xb ab : Vec Ideal S2000x256 .f32) (wb : Vec Ideal S256x256 .f32) :
    k3_pay1 (F := Ideal) xb ab wb = k0_pay1 xb ab wb := rfl
theorem pay4_eq (xb ab : Vec Ideal S2000x256 .f32) (wb : Vec Ideal S256x256 .f32) :
    k4_pay1 (F := Ideal) xb ab wb = k0_pay1 xb ab wb := rfl

end Body

end Cert.Gcn

end
-- ==== Proof.Region0.lean ====
/-
  Launch 0: the output array after the launch, as one function of the arrays the launch finds.

  The launch walks 25 row blocks of 2000 rows. At block `t` its body reads rows `2000·t … 2000·t + 1999` of the
  initial features and of the aggregated features and the whole weight matrix, and writes the same rows of the
  output. Since a layer's row depends on the same row of its two feature operands only, what block `t` writes back is
  block `t` of the layer's whole-array output; the 25 blocks tile the 50000 rows, so the array ends holding the layer's
  output — whatever the buffers held when the launch was entered (`V` is a parameter throughout).
-/
import proofs.«107420_j10050223473328_1_alg».proof.Proof.Gen.KernelIdeal.Frame
import proofs.«107420_j10050223473328_1_alg».proof.Proof.Layer

set_option maxRecDepth 16384

noncomputable section

namespace Cert.KernelIdeal.Whole

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's rectangles start at the origin. -/
theorem origin0 : (![0, 0] : Fin 2 → Nat) = fun _ => 0 := funext fun a => by fin_cases a <;> rfl

/-- The printed index maps, decided over the grid: the feature windows and the output window sit at row block `t`,
    the weight window at the one block there is. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's stored value on row blocks cut at row `2000·t` out of whole arrays `X`, `A` (and the whole weight matrix)
    is the layer's whole-array output read at the same rows. -/
theorem block_of_mix0 (X A : (⟨2, ![50000, 256]⟩ : Shape).Idx → EReal) (Wt : (⟨2, ![256, 256]⟩ : Shape).Idx → EReal)
    (xb ab : Vec Ideal S2000x256 .f32) (wb : Vec Ideal S256x256 .f32) (e : Fin 2000 → Fin 50000)
    (hx : ∀ p k, xb (ix2 p k) = X (ix2 (e p) k)) (ha : ∀ p k, ab (ix2 p k) = A (ix2 (e p) k))
    (hw : ∀ k q, wb (ix2 k q) = Wt (ix2 k q)) (p : Fin 2000) (q : Fin 256) :
    k0_pay1 (F := Ideal) xb ab wb (ix2 p q) = mix X A Wt (ix2 (e p) q) := by
  rw [pay0_apply, mix_ix2]
  unfold mixAt
  refine congrArg (max · c0) (Finset.sum_congr rfl fun k _ => ?_)
  rw [hx, ha, hw]

/-- WHAT POINT `t` WRITES BACK is block `t` of the layer's output on the arrays as the launch finds them. -/
theorem flushed0_eq (c : Dev nD) (t : Fin cfg0.N) :
    (dat0 V c).flushed 3 t = ((cfg0.win 3).blk t).view.read (Elt Ideal)
      (mix (V c main_arg0) (V c main_v24) (V c main_arg2)) := by
  show (cfg0.win 3).cut (grid0.coords t) ((dat0 V c).after 3 t) = _
  rw [after0_3]
  unfold out0_3
  rw [View.canon_unit_zero origin0]
  simp only [View.ld_unit_zero (S := S2000x256) origin0, View.ld_unit_zero (S := S256x256) origin0]
  obtain ⟨e0, e1, e2, e3, e4, e5, e6, e7⟩ := index_facts0 t
  have ht : t.val < 25 := Nat.lt_of_lt_of_eq t.isLt N_0
  funext j
  obtain ⟨p, q, rfl⟩ : ∃ (p : Fin 2000) (q : Fin 256), j = ix2 p q := ⟨j 0, j 1, eq_ix2 j⟩
  have hp : p.val < 2000 := p.isLt
  refine (block_of_mix0 (V c main_arg0) (V c main_v24) (V c main_arg2) (iblk0 V c 0 t) (iblk0 V c 1 t) (iblk0 V c 2 t)
    (fun p => ⟨t.val * 2000 + p.val, by have := p.isLt; omega⟩) ?_ ?_ ?_ p q).trans ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  · intro p k
    show V c main_v24 (((cfg0.win 1).blk t).view.emb (ix2 p k)) = _
    refine congrArg (V c main_v24) (funext fun a => Fin.ext ?_)
    match a with
    | ⟨0, _⟩ => show win0_1.index t (0 : Fin 2) * 2000 + 1 * p.val = t.val * 2000 + p.val; omega
    | ⟨1, _⟩ => show win0_1.index t (1 : Fin 2) * 256 + 1 * k.val = k.val; omega
  · intro k q
    show V c main_arg2 (((cfg0.win 2).blk t).view.emb (ix2 k q)) = _
    refine congrArg (V c main_arg2) (funext fun a => Fin.ext ?_)
    match a with
    | ⟨0, _⟩ => show win0_2.index t (0 : Fin 2) * 256 + 1 * k.val = k.val; omega
    | ⟨1, _⟩ => show win0_2.index t (1 : Fin 2) * 256 + 1 * q.val = q.val; omega
  · show mix (V c main_arg0) (V c main_v24) (V c main_arg2) _
      = mix (V c main_arg0) (V c main_v24) (V c main_arg2) (((cfg0.win 3).blk t).view.emb (ix2 p q))
    refine congrArg (mix (V c main_arg0) (V c main_v24) (V c main_arg2)) (funext fun a => Fin.ext ?_)
    match a with
    | ⟨0, _⟩ => show t.val * 2000 + p.val = win0_3.index t (0 : Fin 2) * 2000 + 1 * p.val; omega
    | ⟨1, _⟩ => show q.val = win0_3.index t (1 : Fin 2) * 256 + 1 * q.val; omega

/-- An index of the output array is in point `t`'s block iff each coordinate is in the block's range on its axis. -/
theorem mem_block0 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v25).slice (win0_3.rect t)).set ↔ _
  rw [View.set_slice_whole, Rect.mem_set_unit]
  exact Iff.rfl

/-- Every row is in some written block: row `r` in block `r / 2000`. -/
theorem covered0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 2000, Nat.lt_of_lt_of_eq (by omega) N_0.symm⟩
  obtain ⟨e0, e1, e2, e3, e4, e5, e6, e7⟩ := index_facts0 t
  have tv : t.val = (i 0).val / 2000 := rfl
  refine ⟨t, flush0_3 t, ?_⟩
  rw [mem_block0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE OUTPUT ARRAY after launch 0: the layer's output on the arrays the launch finds. -/
theorem out_array0 (c : Dev nD) :
    (dat0 V c).arrAt 3 cfg0.N = mix (V c main_arg0) (V c main_v24) (V c main_arg2) :=
  (dat0 V c).arrAt_eq_of_cover 3 _ (fun t _ => flushed0_eq V c t) (covered0)

end Cert.KernelIdeal.Whole

end
-- ==== Proof.Region1.lean ====
/-
  Launch 1: the output array after the launch, as one function of the arrays the launch finds.

  The launch walks 25 row blocks of 2000 rows. At block `t` its body reads rows `2000·t … 2000·t + 1999` of the
  initial features and of the aggregated features and the whole weight matrix, and writes the same rows of the
  output. Since a layer's row depends on the same row of its two feature operands only, what block `t` writes back is
  block `t` of the layer's whole-array output; the 25 blocks tile the 50000 rows, so the array ends holding the layer's
  output — whatever the buffers held when the launch was entered (`V` is a parameter throughout).
-/
import proofs.«107420_j10050223473328_1_alg».proof.Proof.Gen.KernelIdeal.Frame
import proofs.«107420_j10050223473328_1_alg».proof.Proof.Layer

set_option maxRecDepth 16384

noncomputable section

namespace Cert.KernelIdeal.Whole

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's rectangles start at the origin. -/
theorem origin1 : (![0, 0] : Fin 2 → Nat) = fun _ => 0 := funext fun a => by fin_cases a <;> rfl

/-- The printed index maps, decided over the grid: the feature windows and the output window sit at row block `t`,
    the weight window at the one block there is. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored value on row blocks cut at row `2000·t` out of whole arrays `X`, `A` (and the whole weight matrix)
    is the layer's whole-array output read at the same rows. -/
theorem block_of_mix1 (X A : (⟨2, ![50000, 256]⟩ : Shape).Idx → EReal) (Wt : (⟨2, ![256, 256]⟩ : Shape).Idx → EReal)
    (xb ab : Vec Ideal S2000x256 .f32) (wb : Vec Ideal S256x256 .f32) (e : Fin 2000 → Fin 50000)
    (hx : ∀ p k, xb (ix2 p k) = X (ix2 (e p) k)) (ha : ∀ p k, ab (ix2 p k) = A (ix2 (e p) k))
    (hw : ∀ k q, wb (ix2 k q) = Wt (ix2 k q)) (p : Fin 2000) (q : Fin 256) :
    k1_pay1 (F := Ideal) xb ab wb (ix2 p q) = mix X A Wt (ix2 (e p) q) := by
  rw [pay1_eq, pay0_apply, mix_ix2]
  unfold mixAt
  refine congrArg (max · c0) (Finset.sum_congr rfl fun k _ => ?_)
  rw [hx, ha, hw]

/-- WHAT POINT `t` WRITES BACK is block `t` of the layer's output on the arrays as the launch finds them. -/
theorem flushed1_eq (c : Dev nD) (t : Fin cfg1.N) :
    (dat1 V c).flushed 3 t = ((cfg1.win 3).blk t).view.read (Elt Ideal)
      (mix (V c main_arg0) (V c main_v38) (V c main_arg2)) := by
  show (cfg1.win 3).cut (grid1.coords t) ((dat1 V c).after 3 t) = _
  rw [after1_3]
  unfold out1_3
  rw [View.canon_unit_zero origin1]
  simp only [View.ld_unit_zero (S := S2000x256) origin1, View.ld_unit_zero (S := S256x256) origin1]
  obtain ⟨e0, e1, e2, e3, e4, e5, e6, e7⟩ := index_facts1 t
  have ht : t.val < 25 := Nat.lt_of_lt_of_eq t.isLt N_1
  funext j
  obtain ⟨p, q, rfl⟩ : ∃ (p : Fin 2000) (q : Fin 256), j = ix2 p q := ⟨j 0, j 1, eq_ix2 j⟩
  have hp : p.val < 2000 := p.isLt
  refine (block_of_mix1 (V c main_arg0) (V c main_v38) (V c main_arg2) (iblk1 V c 0 t) (iblk1 V c 1 t) (iblk1 V c 2 t)
    (fun p => ⟨t.val * 2000 + p.val, by have := p.isLt; omega⟩) ?_ ?_ ?_ p q).trans ?_
  · intro p k
    show V c main_arg0 (((cfg1.win 0).blk t).view.emb (ix2 p k)) = _
    refine congrArg (V c main_arg0) (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  · intro p k
    show V c main_v38 (((cfg1.win 1).blk t).view.emb (ix2 p k)) = _
    refine congrArg (V c main_v38) (funext fun a => Fin.ext ?_)
    match a with
    | ⟨0, _⟩ => show win1_1.index t (0 : Fin 2) * 2000 + 1 * p.val = t.val * 2000 + p.val; omega
    | ⟨1, _⟩ => show win1_1.index t (1 : Fin 2) * 256 + 1 * k.val = k.val; omega
  · intro k q
    show V c main_arg2 (((cfg1.win 2).blk t).view.emb (ix2 k q)) = _
    refine congrArg (V c main_arg2) (funext fun a => Fin.ext ?_)
    match a with
    | ⟨0, _⟩ => show win1_2.index t (0 : Fin 2) * 256 + 1 * k.val = k.val; omega
    | ⟨1, _⟩ => show win1_2.index t (1 : Fin 2) * 256 + 1 * q.val = q.val; omega
  · show mix (V c main_arg0) (V c main_v38) (V c main_arg2) _
      = mix (V c main_arg0) (V c main_v38) (V c main_arg2) (((cfg1.win 3).blk t).view.emb (ix2 p q))
    refine congrArg (mix (V c main_arg0) (V c main_v38) (V c main_arg2)) (funext fun a => Fin.ext ?_)
    match a with
    | ⟨0, _⟩ => show t.val * 2000 + p.val = win1_3.index t (0 : Fin 2) * 2000 + 1 * p.val; omega
    | ⟨1, _⟩ => show q.val = win1_3.index t (1 : Fin 2) * 256 + 1 * q.val; omega

/-- An index of the output array is in point `t`'s block iff each coordinate is in the block's range on its axis. -/
theorem mem_block1 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v39).slice (win1_3.rect t)).set ↔ _
  rw [View.set_slice_whole, Rect.mem_set_unit]
  exact Iff.rfl

/-- Every row is in some written block: row `r` in block `r / 2000`. -/
theorem covered1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  let t : Fin cfg1.N := ⟨(i 0).val / 2000, Nat.lt_of_lt_of_eq (by omega) N_1.symm⟩
  obtain ⟨e0, e1, e2, e3, e4, e5, e6, e7⟩ := index_facts1 t
  have tv : t.val = (i 0).val / 2000 := rfl
  refine ⟨t, flush1_3 t, ?_⟩
  rw [mem_block1]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- THE OUTPUT ARRAY after launch 1: the layer's output on the arrays the launch finds. -/
theorem out_array1 (c : Dev nD) :
    (dat1 V c).arrAt 3 cfg1.N = mix (V c main_arg0) (V c main_v38) (V c main_arg2) :=
  (dat1 V c).arrAt_eq_of_cover 3 _ (fun t _ => flushed1_eq V c t) (covered1)

end Cert.KernelIdeal.Whole

end
-- ==== Proof.Region2.lean ====
/-
  Launch 2: the output array after the launch, as one function of the arrays the launch finds.

  The launch walks 25 row blocks of 2000 rows. At block `t` its body reads rows `2000·t … 2000·t + 1999` of the
  initial features and of the aggregated features and the whole weight matrix, and writes the same rows of the
  output. Since a layer's row depends on the same row of its two feature operands only, what block `t` writes back is
  block `t` of the layer's whole-array output; the 25 blocks tile the 50000 rows, so the array ends holding the layer's
  output — whatever the buffers held when the launch was entered (`V` is a parameter throughout).
-/
import proofs.«107420_j10050223473328_1_alg».proof.Proof.Gen.KernelIdeal.Frame
import proofs.«107420_j10050223473328_1_alg».proof.Proof.Layer

set_option maxRecDepth 16384

noncomputable section

namespace Cert.KernelIdeal.Whole

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's rectangles start at the origin. -/
theorem origin2 : (![0, 0] : Fin 2 → Nat) = fun _ => 0 := funext fun a => by fin_cases a <;> rfl

/-- The printed index maps, decided over the grid: the feature windows and the output window sit at row block `t`,
    the weight window at the one block there is. -/
theorem index_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's stored value on row blocks cut at row `2000·t` out of whole arrays `X`, `A` (and the whole weight matrix)
    is the layer's whole-array output read at the same rows. -/
theorem block_of_mix2 (X A : (⟨2, ![50000, 256]⟩ : Shape).Idx → EReal) (Wt : (⟨2, ![256, 256]⟩ : Shape).Idx → EReal)
    (xb ab : Vec Ideal S2000x256 .f32) (wb : Vec Ideal S256x256 .f32) (e : Fin 2000 → Fin 50000)
    (hx : ∀ p k, xb (ix2 p k) = X (ix2 (e p) k)) (ha : ∀ p k, ab (ix2 p k) = A (ix2 (e p) k))
    (hw : ∀ k q, wb (ix2 k q) = Wt (ix2 k q)) (p : Fin 2000) (q : Fin 256) :
    k2_pay1 (F := Ideal) xb ab wb (ix2 p q) = mix X A Wt (ix2 (e p) q) := by
  rw [pay2_eq, pay0_apply, mix_ix2]
  unfold mixAt
  refine congrArg (max · c0) (Finset.sum_congr rfl fun k _ => ?_)
  rw [hx, ha, hw]

/-- WHAT POINT `t` WRITES BACK is block `t` of the layer's output on the arrays as the launch finds them. -/
theorem flushed2_eq (c : Dev nD) (t : Fin cfg2.N) :
    (dat2 V c).flushed 3 t = ((cfg2.win 3).blk t).view.read (Elt Ideal)
      (mix (V c main_arg0) (V c main_v52) (V c main_arg2)) := by
  show (cfg2.win 3).cut (grid2.coords t) ((dat2 V c).after 3 t) = _
  rw [after2_3]
  unfold out2_3
  rw [View.canon_unit_zero origin2]
  simp only [View.ld_unit_zero (S := S2000x256) origin2, View.ld_unit_zero (S := S256x256) origin2]
  obtain ⟨e0, e1, e2, e3, e4, e5, e6, e7⟩ := index_facts2 t
  have ht : t.val < 25 := Nat.lt_of_lt_of_eq t.isLt N_2
  funext j
  obtain ⟨p, q, rfl⟩ : ∃ (p : Fin 2000) (q : Fin 256), j = ix2 p q := ⟨j 0, j 1, eq_ix2 j⟩
  have hp : p.val < 2000 := p.isLt
  refine (block_of_mix2 (V c main_arg0) (V c main_v52) (V c main_arg2) (iblk2 V c 0 t) (iblk2 V c 1 t) (iblk2 V c 2 t)
    (fun p => ⟨t.val * 2000 + p.val, by have := p.isLt; omega⟩) ?_ ?_ ?_ p q).trans ?_
  · intro p k
    show V c main_arg0 (((cfg2.win 0).blk t).view.emb (ix2 p k)) = _
    refine congrArg (V c main_arg0) (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k.val = k.val; omega
  · intro p k
    show V c main_v52 (((cfg2.win 1).blk t).view.emb (ix2 p k)) = _
    refine congrArg (V c main_v52) (funext fun a => Fin.ext ?_)
    match a with
    | ⟨0, _⟩ => show win2_1.index t (0 : Fin 2) * 2000 + 1 * p.val = t.val * 2000 + p.val; omega
    | ⟨1, _⟩ => show win2_1.index t (1 : Fin 2) * 256 + 1 * k.val = k.val; omega
  · intro k q
    show V c main_arg2 (((cfg2.win 2).blk t).view.emb (ix2 k q)) = _
    refine congrArg (V c main_arg2) (funext fun a => Fin.ext ?_)
    match a with
    | ⟨0, _⟩ => show win2_2.index t (0 : Fin 2) * 256 + 1 * k.val = k.val; omega
    | ⟨1, _⟩ => show win2_2.index t (1 : Fin 2) * 256 + 1 * q.val = q.val; omega
  · show mix (V c main_arg0) (V c main_v52) (V c main_arg2) _
      = mix (V c main_arg0) (V c main_v52) (V c main_arg2) (((cfg2.win 3).blk t).view.emb (ix2 p q))
    refine congrArg (mix (V c main_arg0) (V c main_v52) (V c main_arg2)) (funext fun a => Fin.ext ?_)
    match a with
    | ⟨0, _⟩ => show t.val * 2000 + p.val = win2_3.index t (0 : Fin 2) * 2000 + 1 * p.val; omega
    | ⟨1, _⟩ => show q.val = win2_3.index t (1 : Fin 2) * 256 + 1 * q.val; omega

/-- An index of the output array is in point `t`'s block iff each coordinate is in the block's range on its axis. -/
theorem mem_block2 (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v53).slice (win2_3.rect t)).set ↔ _
  rw [View.set_slice_whole, Rect.mem_set_unit]
  exact Iff.rfl

/-- Every row is in some written block: row `r` in block `r / 2000`. -/
theorem covered2 (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  let t : Fin cfg2.N := ⟨(i 0).val / 2000, Nat.lt_of_lt_of_eq (by omega) N_2.symm⟩
  obtain ⟨e0, e1, e2, e3, e4, e5, e6, e7⟩ := index_facts2 t
  have tv : t.val = (i 0).val / 2000 := rfl
  refine ⟨t, flush2_3 t, ?_⟩
  rw [mem_block2]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- THE OUTPUT ARRAY after launch 2: the layer's output on the arrays the launch finds. -/
theorem out_array2 (c : Dev nD) :
    (dat2 V c).arrAt 3 cfg2.N = mix (V c main_arg0) (V c main_v52) (V c main_arg2) :=
  (dat2 V c).arrAt_eq_of_cover 3 _ (fun t _ => flushed2_eq V c t) (covered2)

end Cert.KernelIdeal.Whole

end
-- ==== Proof.Region3.lean ====
/-
  Launch 3: the output array after the launch, as one function of the arrays the launch finds.

  The launch walks 25 row blocks of 2000 rows. At block `t` its body reads rows `2000·t … 2000·t + 1999` of the
  initial features and of the aggregated features and the whole weight matrix, and writes the same rows of the
  output. Since a layer's row depends on the same row of its two feature operands only, what block `t` writes back is
  block `t` of the layer's whole-array output; the 25 blocks tile the 50000 rows, so the array ends holding the layer's
  output — whatever the buffers held when the launch was entered (`V` is a parameter throughout).
-/
import proofs.«107420_j10050223473328_1_alg».proof.Proof.Gen.KernelIdeal.Frame
import proofs.«107420_j10050223473328_1_alg».proof.Proof.Layer

set_option maxRecDepth 16384

noncomputable section

namespace Cert.KernelIdeal.Whole

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's rectangles start at the origin. -/
theorem origin3 : (![0, 0] : Fin 2 → Nat) = fun _ => 0 := funext fun a => by fin_cases a <;> rfl

/-- The printed index maps, decided over the grid: the feature windows and the output window sit at row block `t`,
    the weight window at the one block there is. -/
theorem index_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's stored value on row blocks cut at row `2000·t` out of whole arrays `X`, `A` (and the whole weight matrix)
    is the layer's whole-array output read at the same rows. -/
theorem block_of_mix3 (X A : (⟨2, ![50000, 256]⟩ : Shape).Idx → EReal) (Wt : (⟨2, ![256, 256]⟩ : Shape).Idx → EReal)
    (xb ab : Vec Ideal S2000x256 .f32) (wb : Vec Ideal S256x256 .f32) (e : Fin 2000 → Fin 50000)
    (hx : ∀ p k, xb (ix2 p k) = X (ix2 (e p) k)) (ha : ∀ p k, ab (ix2 p k) = A (ix2 (e p) k))
    (hw : ∀ k q, wb (ix2 k q) = Wt (ix2 k q)) (p : Fin 2000) (q : Fin 256) :
    k3_pay1 (F := Ideal) xb ab wb (ix2 p q) = mix X A Wt (ix2 (e p) q) := by
  rw [pay3_eq, pay0_apply, mix_ix2]
  unfold mixAt
  refine congrArg (max · c0) (Finset.sum_congr rfl fun k _ => ?_)
  rw [hx, ha, hw]

/-- WHAT POINT `t` WRITES BACK is block `t` of the layer's output on the arrays as the launch finds them. -/
theorem flushed3_eq (c : Dev nD) (t : Fin cfg3.N) :
    (dat3 V c).flushed 3 t = ((cfg3.win 3).blk t).view.read (Elt Ideal)
      (mix (V c main_arg0) (V c main_v66) (V c main_arg2)) := by
  show (cfg3.win 3).cut (grid3.coords t) ((dat3 V c).after 3 t) = _
  rw [after3_3]
  unfold out3_3
  rw [View.canon_unit_zero origin3]
  simp only [View.ld_unit_zero (S := S2000x256) origin3, View.ld_unit_zero (S := S256x256) origin3]
  obtain ⟨e0, e1, e2, e3, e4, e5, e6, e7⟩ := index_facts3 t
  have ht : t.val < 25 := Nat.lt_of_lt_of_eq t.isLt N_3
  funext j
  obtain ⟨p, q, rfl⟩ : ∃ (p : Fin 2000) (q : Fin 256), j = ix2 p q := ⟨j 0, j 1, eq_ix2 j⟩
  have hp : p.val < 2000 := p.isLt
  refine (block_of_mix3 (V c main_arg0) (V c main_v66) (V c main_arg2) (iblk3 V c 0 t) (iblk3 V c 1 t) (iblk3 V c 2 t)
    (fun p => ⟨t.val * 2000 + p.val, by have := p.isLt; omega⟩) ?_ ?_ ?_ p q).trans ?_
  · intro p k
    show V c main_arg0 (((cfg3.win 0).blk t).view.emb (ix2 p k)) = _
    refine congrArg (V c main_arg0) (funext fun a => Fin.ext ?_)
    match a with
    | ⟨0, _⟩ => show win3_0.index t (0 : Fin 2) * 2000 + 1 * p.val = t.val * 2000 + p.val; omega
    | ⟨1, _⟩ => show win3_0.index t (1 : Fin 2) * 256 + 1 * k.val = k.val; omega
  · intro p k
    show V c main_v66 (((cfg3.win 1).blk t).view.emb (ix2 p k)) = _
    refine congrArg (V c main_v66) (funext fun a => Fin.ext ?_)
    match a with
    | ⟨0, _⟩ => show win3_1.index t (0 : Fin 2) * 2000 + 1 * p.val = t.val * 2000 + p.val; omega
    | ⟨1, _⟩ => show win3_1.index t (1 : Fin 2) * 256 + 1 * k.val = k.val; omega
  · intro k q
    show V c main_arg2 (((cfg3.win 2).blk t).view.emb (ix2 k q)) = _
    refine congrArg (V c main_arg2) (funext fun a => Fin.ext ?_)
    match a with
    | ⟨0, _⟩ => show win3_2.index t (0 : Fin 2) * 256 + 1 * k.val = k.val; omega
    | ⟨1, _⟩ => show win3_2.index t (1 : Fin 2) * 256 + 1 * q.val = q.val; omega
  · show mix (V c main_arg0) (V c main_v66) (V c main_arg2) _
      = mix (V c main_arg0) (V c main_v66) (V c main_arg2) (((cfg3.win 3).blk t).view.emb (ix2 p q))
    refine congrArg (mix (V c main_arg0) (V c main_v66) (V c main_arg2)) (funext fun a => Fin.ext ?_)
    match a with
    | ⟨0, _⟩ => show t.val * 2000 + p.val = win3_3.index t (0 : Fin 2) * 2000 + 1 * p.val; omega
    | ⟨1, _⟩ => show q.val = win3_3.index t (1 : Fin 2) * 256 + 1 * q.val; omega

/-- An index of the output array is in point `t`'s block iff each coordinate is in the block's range on its axis. -/
theorem mem_block3 (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v67).slice (win3_3.rect t)).set ↔ _
  rw [View.set_slice_whole, Rect.mem_set_unit]
  exact Iff.rfl

/-- Every row is in some written block: row `r` in block `r / 2000`. -/
theorem covered3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  let t : Fin cfg3.N := ⟨(i 0).val / 2000, Nat.lt_of_lt_of_eq (by omega) N_3.symm⟩
  obtain ⟨e0, e1, e2, e3, e4, e5, e6, e7⟩ := index_facts3 t
  have tv : t.val = (i 0).val / 2000 := rfl
  refine ⟨t, flush3_3 t, ?_⟩
  rw [mem_block3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- THE OUTPUT ARRAY after launch 3: the layer's output on the arrays the launch finds. -/
theorem out_array3 (c : Dev nD) :
    (dat3 V c).arrAt 3 cfg3.N = mix (V c main_arg0) (V c main_v66) (V c main_arg2) :=
  (dat3 V c).arrAt_eq_of_cover 3 _ (fun t _ => flushed3_eq V c t) (covered3)

end Cert.KernelIdeal.Whole

end
-- ==== Proof.Region4.lean ====
/-
  Launch 4: the output array after the launch, as one function of the arrays the launch finds.

  The launch walks 25 row blocks of 2000 rows. At block `t` its body reads rows `2000·t … 2000·t + 1999` of the
  initial features and of the aggregated features and the whole weight matrix, and writes the same rows of the
  output. Since a layer's row depends on the same row of its two feature operands only, what block `t` writes back is
  block `t` of the layer's whole-array output; the 25 blocks tile the 50000 rows, so the array ends holding the layer's
  output — whatever the buffers held when the launch was entered (`V` is a parameter throughout).
-/
import proofs.«107420_j10050223473328_1_alg».proof.Proof.Gen.KernelIdeal.Frame
import proofs.«107420_j10050223473328_1_alg».proof.Proof.Layer

set_option maxRecDepth 16384

noncomputable section

namespace Cert.KernelIdeal.Whole

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The body's rectangles start at the origin. -/
theorem origin4 : (![0, 0] : Fin 2 → Nat) = fun _ => 0 := funext fun a => by fin_cases a <;> rfl

/-- The printed index maps, decided over the grid: the feature windows and the output window sit at row block `t`,
    the weight window at the one block there is. -/
theorem index_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The body's stored value on row blocks cut at row `2000·t` out of whole arrays `X`, `A` (and the whole weight matrix)
    is the layer's whole-array output read at the same rows. -/
theorem block_of_mix4 (X A : (⟨2, ![50000, 256]⟩ : Shape).Idx → EReal) (Wt : (⟨2, ![256, 256]⟩ : Shape).Idx → EReal)
    (xb ab : Vec Ideal S2000x256 .f32) (wb : Vec Ideal S256x256 .f32) (e : Fin 2000 → Fin 50000)
    (hx : ∀ p k, xb (ix2 p k) = X (ix2 (e p) k)) (ha : ∀ p k, ab (ix2 p k) = A (ix2 (e p) k))
    (hw : ∀ k q, wb (ix2 k q) = Wt (ix2 k q)) (p : Fin 2000) (q : Fin 256) :
    k4_pay1 (F := Ideal) xb ab wb (ix2 p q) = mix X A Wt (ix2 (e p) q) := by
  rw [pay4_eq, pay0_apply, mix_ix2]
  unfold mixAt
  refine congrArg (max · c0) (Finset.sum_congr rfl fun k _ => ?_)
  rw [hx, ha, hw]

/-- WHAT POINT `t` WRITES BACK is block `t` of the layer's output on the arrays as the launch finds them. -/
theorem flushed4_eq (c : Dev nD) (t : Fin cfg4.N) :
    (dat4 V c).flushed 3 t = ((cfg4.win 3).blk t).view.read (Elt Ideal)
      (mix (V c main_arg0) (V c main_v80) (V c main_arg2)) := by
  show (cfg4.win 3).cut (grid4.coords t) ((dat4 V c).after 3 t) = _
  rw [after4_3]
  unfold out4_3
  rw [View.canon_unit_zero origin4]
  simp only [View.ld_unit_zero (S := S2000x256) origin4, View.ld_unit_zero (S := S256x256) origin4]
  obtain ⟨e0, e1, e2, e3, e4, e5, e6, e7⟩ := index_facts4 t
  have ht : t.val < 25 := Nat.lt_of_lt_of_eq t.isLt N_4
  funext j
  obtain ⟨p, q, rfl⟩ : ∃ (p : Fin 2000) (q : Fin 256), j = ix2 p q := ⟨j 0, j 1, eq_ix2 j⟩
  have hp : p.val < 2000 := p.isLt
  refine (block_of_mix4 (V c main_arg0) (V c main_v80) (V c main_arg2) (iblk4 V c 0 t) (iblk4 V c 1 t) (iblk4 V c 2 t)
    (fun p => ⟨t.val * 2000 + p.val, by have := p.isLt; omega⟩) ?_ ?_ ?_ p q).trans ?_
  · intro p k
    show V c main_arg0 (((cfg4.win 0).blk t).view.emb (ix2 p k)) = _
    refine congrArg (V c main_arg0) (funext fun a => Fin.ext ?_)
    match a with
    | ⟨0, _⟩ => show win4_0.index t (0 : Fin 2) * 2000 + 1 * p.val = t.val * 2000 + p.val; omega
    | ⟨1, _⟩ => show win4_0.index t (1 : Fin 2) * 256 + 1 * k.val = k.val; omega
  · intro p k
    show V c main_v80 (((cfg4.win 1).blk t).view.emb (ix2 p k)) = _
    refine congrArg (V c main_v80) (funext fun a => Fin.ext ?_)
    match a with
    | ⟨0, _⟩ => show win4_1.index t (0 : Fin 2) * 2000 + 1 * p.val = t.val * 2000 + p.val; omega
    | ⟨1, _⟩ => show win4_1.index t (1 : Fin 2) * 256 + 1 * k.val = k.val; omega
  · intro k q
    show V c main_arg2 (((cfg4.win 2).blk t).view.emb (ix2 k q)) = _
    refine congrArg (V c main_arg2) (funext fun a => Fin.ext ?_)
    match a with
    | ⟨0, _⟩ => show win4_2.index t (0 : Fin 2) * 256 + 1 * k.val = k.val; omega
    | ⟨1, _⟩ => show win4_2.index t (1 : Fin 2) * 256 + 1 * q.val = q.val; omega
  · show mix (V c main_arg0) (V c main_v80) (V c main_arg2) _
      = mix (V c main_arg0) (V c main_v80) (V c main_arg2) (((cfg4.win 3).blk t).view.emb (ix2 p q))
    refine congrArg (mix (V c main_arg0) (V c main_v80) (V c main_arg2)) (funext fun a => Fin.ext ?_)
    match a with
    | ⟨0, _⟩ => show t.val * 2000 + p.val = win4_3.index t (0 : Fin 2) * 2000 + 1 * p.val; omega
    | ⟨1, _⟩ => show q.val = win4_3.index t (1 : Fin 2) * 256 + 1 * q.val; omega

/-- An index of the output array is in point `t`'s block iff each coordinate is in the block's range on its axis. -/
theorem mem_block4 (t : Fin cfg4.N) (i : S50000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v81).slice (win4_3.rect t)).set ↔ _
  rw [View.set_slice_whole, Rect.mem_set_unit]
  exact Iff.rfl

/-- Every row is in some written block: row `r` in block `r / 2000`. -/
theorem covered4 (i : S50000x256.Idx) :
    ∃ t : Fin cfg4.N, (cfg4.win 3).flush t = true ∧ i ∈ ((cfg4.win 3).blk t).view.set := by
  have hi0 : (i 0).val < 50000 := (i 0).isLt
  have hi1 : (i 1).val < 256 := (i 1).isLt
  let t : Fin cfg4.N := ⟨(i 0).val / 2000, Nat.lt_of_lt_of_eq (by omega) N_4.symm⟩
  obtain ⟨e0, e1, e2, e3, e4, e5, e6, e7⟩ := index_facts4 t
  have tv : t.val = (i 0).val / 2000 := rfl
  refine ⟨t, flush4_3 t, ?_⟩
  rw [mem_block4]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 256 ≤ (i 1).val ∧ (i 1).val < win4_3.index t (1 : Fin 2) * 256 + 256; omega

/-- THE OUTPUT ARRAY after launch 4: the layer's output on the arrays the launch finds. -/
theorem out_array4 (c : Dev nD) :
    (dat4 V c).arrAt 3 cfg4.N = mix (V c main_arg0) (V c main_v80) (V c main_arg2) :=
  (dat4 V c).arrAt_eq_of_cover 3 _ (fun t _ => flushed4_eq V c t) (covered4)

end Cert.KernelIdeal.Whole

end
-- ==== Proof.Fold.lean ====
/-
  The kernel program's result, read through the segment boundaries.

  The boundaries' contents are a fold: a host stretch's operations applied to the previous boundary, then a launch's
  written-back output put over it, ten times. Walking it once: after stretch 0 the five long-lived arrays are the
  initial features, the weights, the source nodes, the destination nodes and the reciprocal clamped degree, and the
  aggregated array is their mean aggregation of the initial features; a launch leaves the five as they were and its
  output at one layer (`Cert.Gcn.mix`) of the initial features, the aggregated array and the weights; a later stretch
  leaves the five as they were and the next aggregated array at the mean aggregation of the launch's output. So the
  result buffer ends at the layer `layerK` applied five times to the initial features.
-/
import proofs.«107420_j10050223473328_1_alg».proof.Proof.Gen.KernelIdeal.Frame
import proofs.«107420_j10050223473328_1_alg».proof.Proof.Stretches
import proofs.«107420_j10050223473328_1_alg».proof.Proof.Region0
import proofs.«107420_j10050223473328_1_alg».proof.Proof.Region1
import proofs.«107420_j10050223473328_1_alg».proof.Proof.Region2
import proofs.«107420_j10050223473328_1_alg».proof.Proof.Region3
import proofs.«107420_j10050223473328_1_alg».proof.Proof.Region4

set_option maxRecDepth 16384

noncomputable section

namespace Cert.KernelIdeal.Whole

open Cert.KernelIdeal Cert.KernelIdeal.Gen Cert.Gcn
open Idealize.ShloMosaic Idealize.ShloMosaic.TcCoe Idealize.SL.Sem Idealize.ShloMosaic.StableHlo

/-- One layer as the kernel program computes it on the running features `X`: the mean aggregation by the reciprocal
    degree, then the mix, the product with the weights and the clamp. -/
def layerK (x0 : (⟨S50000x256, .f32⟩ : BufTy).Contents (Elt Ideal)) (e : (⟨S2x300000, .i32⟩ : BufTy).Contents (Elt Ideal))
    (wt : (⟨S256x256, .f32⟩ : BufTy).Contents (Elt Ideal)) (X : (⟨S50000x256, .f32⟩ : BufTy).Contents (Elt Ideal)) :
    (⟨S50000x256, .f32⟩ : BufTy).Contents (Elt Ideal) :=
  mix x0 (aggMul X (srcOf e) (dstOf e) (invDegOf (dstOf e))) wt

variable (m : (ℓ : Loc nD τ sig) → Buf (Elt Ideal) ℓ) (ρ : Dev nD → PrngReg) (c : Dev nD)

/-! ## Launch 0: from boundary 1 to boundary 2 -/

/-- Launch 0 leaves the five long-lived arrays as it found them: two are its input windows' arrays, three it never touches. -/
theorem kept_r0 {x0 wt s d f} (h : Kept (W1 m ρ c) x0 wt s d f) : Kept (W2 m ρ c) x0 wt s d f :=
  ⟨((W2_arr m ρ c 0).trans (((dat0 (V1 m ρ) c).arrAt_in 0 rfl _).trans (A_eq0 (V1 m ρ) c 0))).trans h.feat,
   ((W2_arr m ρ c 2).trans (((dat0 (V1 m ρ) c).arrAt_in 2 rfl _).trans (A_eq0 (V1 m ρ) c 2))).trans h.weights,
   (W2_of_ne m ρ c main_v1 (by decide)).trans h.src,
   (W2_of_ne m ρ c main_v3 (by decide)).trans h.dst,
   (W2_of_ne m ρ c main_v11 (by decide)).trans h.inv⟩

/-- Launch 0 leaves its output at one layer of the initial features, the aggregated array and the weights. -/
theorem out_r0 {x0 wt s d f} (h : Kept (W1 m ρ c) x0 wt s d f) (A : (⟨S50000x256, .f32⟩ : BufTy).Contents (Elt Ideal))
    (hagg : W1 m ρ c (Proc.devRef .tc main_v24) = A) :
    W2 m ρ c (Proc.devRef .tc main_v25) = mix x0 A wt := by
  refine ((W2_arr m ρ c 3).trans (out_array0 (V1 m ρ) c)).trans ?_
  show mix (W1 m ρ c (Proc.devRef .tc main_arg0)) (W1 m ρ c (Proc.devRef .tc main_v24)) (W1 m ρ c (Proc.devRef .tc main_arg2)) = _
  rw [h.feat, hagg, h.weights]

/-! ## Launch 1: from boundary 3 to boundary 4 -/

/-- Launch 1 leaves the five long-lived arrays as it found them: two are its input windows' arrays, three it never touches. -/
theorem kept_r1 {x0 wt s d f} (h : Kept (W3 m ρ c) x0 wt s d f) : Kept (W4 m ρ c) x0 wt s d f :=
  ⟨((W4_arr m ρ c 0).trans (((dat1 (V3 m ρ) c).arrAt_in 0 rfl _).trans (A_eq1 (V3 m ρ) c 0))).trans h.feat,
   ((W4_arr m ρ c 2).trans (((dat1 (V3 m ρ) c).arrAt_in 2 rfl _).trans (A_eq1 (V3 m ρ) c 2))).trans h.weights,
   (W4_of_ne m ρ c main_v1 (by decide)).trans h.src,
   (W4_of_ne m ρ c main_v3 (by decide)).trans h.dst,
   (W4_of_ne m ρ c main_v11 (by decide)).trans h.inv⟩

/-- Launch 1 leaves its output at one layer of the initial features, the aggregated array and the weights. -/
theorem out_r1 {x0 wt s d f} (h : Kept (W3 m ρ c) x0 wt s d f) (A : (⟨S50000x256, .f32⟩ : BufTy).Contents (Elt Ideal))
    (hagg : W3 m ρ c (Proc.devRef .tc main_v38) = A) :
    W4 m ρ c (Proc.devRef .tc main_v39) = mix x0 A wt := by
  refine ((W4_arr m ρ c 3).trans (out_array1 (V3 m ρ) c)).trans ?_
  show mix (W3 m ρ c (Proc.devRef .tc main_arg0)) (W3 m ρ c (Proc.devRef .tc main_v38)) (W3 m ρ c (Proc.devRef .tc main_arg2)) = _
  rw [h.feat, hagg, h.weights]

/-! ## Launch 2: from boundary 5 to boundary 6 -/

/-- Launch 2 leaves the five long-lived arrays as it found them: two are its input windows' arrays, three it never touches. -/
theorem kept_r2 {x0 wt s d f} (h : Kept (W5 m ρ c) x0 wt s d f) : Kept (W6 m ρ c) x0 wt s d f :=
  ⟨((W6_arr m ρ c 0).trans (((dat2 (V5 m ρ) c).arrAt_in 0 rfl _).trans (A_eq2 (V5 m ρ) c 0))).trans h.feat,
   ((W6_arr m ρ c 2).trans (((dat2 (V5 m ρ) c).arrAt_in 2 rfl _).trans (A_eq2 (V5 m ρ) c 2))).trans h.weights,
   (W6_of_ne m ρ c main_v1 (by decide)).trans h.src,
   (W6_of_ne m ρ c main_v3 (by decide)).trans h.dst,
   (W6_of_ne m ρ c main_v11 (by decide)).trans h.inv⟩

/-- Launch 2 leaves its output at one layer of the initial features, the aggregated array and the weights. -/
theorem out_r2 {x0 wt s d f} (h : Kept (W5 m ρ c) x0 wt s d f) (A : (⟨S50000x256, .f32⟩ : BufTy).Contents (Elt Ideal))
    (hagg : W5 m ρ c (Proc.devRef .tc main_v52) = A) :
    W6 m ρ c (Proc.devRef .tc main_v53) = mix x0 A wt := by
  refine ((W6_arr m ρ c 3).trans (out_array2 (V5 m ρ) c)).trans ?_
  show mix (W5 m ρ c (Proc.devRef .tc main_arg0)) (W5 m ρ c (Proc.devRef .tc main_v52)) (W5 m ρ c (Proc.devRef .tc main_arg2)) = _
  rw [h.feat, hagg, h.weights]

/-! ## Launch 3: from boundary 7 to boundary 8 -/

/-- Launch 3 leaves the five long-lived arrays as it found them: two are its input windows' arrays, three it never touches. -/
theorem kept_r3 {x0 wt s d f} (h : Kept (W7 m ρ c) x0 wt s d f) : Kept (W8 m ρ c) x0 wt s d f :=
  ⟨((W8_arr m ρ c 0).trans (((dat3 (V7 m ρ) c).arrAt_in 0 rfl _).trans (A_eq3 (V7 m ρ) c 0))).trans h.feat,
   ((W8_arr m ρ c 2).trans (((dat3 (V7 m ρ) c).arrAt_in 2 rfl _).trans (A_eq3 (V7 m ρ) c 2))).trans h.weights,
   (W8_of_ne m ρ c main_v1 (by decide)).trans h.src,
   (W8_of_ne m ρ c main_v3 (by decide)).trans h.dst,
   (W8_of_ne m ρ c main_v11 (by decide)).trans h.inv⟩

/-- Launch 3 leaves its output at one layer of the initial features, the aggregated array and the weights. -/
theorem out_r3 {x0 wt s d f} (h : Kept (W7 m ρ c) x0 wt s d f) (A : (⟨S50000x256, .f32⟩ : BufTy).Contents (Elt Ideal))
    (hagg : W7 m ρ c (Proc.devRef .tc main_v66) = A) :
    W8 m ρ c (Proc.devRef .tc main_v67) = mix x0 A wt := by
  refine ((W8_arr m ρ c 3).trans (out_array3 (V7 m ρ) c)).trans ?_
  show mix (W7 m ρ c (Proc.devRef .tc main_arg0)) (W7 m ρ c (Proc.devRef .tc main_v66)) (W7 m ρ c (Proc.devRef .tc main_arg2)) = _
  rw [h.feat, hagg, h.weights]

/-! ## Launch 4: from boundary 9 to boundary 10 -/

/-- Launch 4 leaves the five long-lived arrays as it found them: two are its input windows' arrays, three it never touches. -/
theorem kept_r4 {x0 wt s d f} (h : Kept (W9 m ρ c) x0 wt s d f) : Kept (W10 m ρ c) x0 wt s d f :=
  ⟨((W10_arr m ρ c 0).trans (((dat4 (V9 m ρ) c).arrAt_in 0 rfl _).trans (A_eq4 (V9 m ρ) c 0))).trans h.feat,
   ((W10_arr m ρ c 2).trans (((dat4 (V9 m ρ) c).arrAt_in 2 rfl _).trans (A_eq4 (V9 m ρ) c 2))).trans h.weights,
   (W10_of_ne m ρ c main_v1 (by decide)).trans h.src,
   (W10_of_ne m ρ c main_v3 (by decide)).trans h.dst,
   (W10_of_ne m ρ c main_v11 (by decide)).trans h.inv⟩

/-- Launch 4 leaves its output at one layer of the initial features, the aggregated array and the weights. -/
theorem out_r4 {x0 wt s d f} (h : Kept (W9 m ρ c) x0 wt s d f) (A : (⟨S50000x256, .f32⟩ : BufTy).Contents (Elt Ideal))
    (hagg : W9 m ρ c (Proc.devRef .tc main_v80) = A) :
    W10 m ρ c (Proc.devRef .tc main_v81) = mix x0 A wt := by
  refine ((W10_arr m ρ c 3).trans (out_array4 (V9 m ρ) c)).trans ?_
  show mix (W9 m ρ c (Proc.devRef .tc main_arg0)) (W9 m ρ c (Proc.devRef .tc main_v80)) (W9 m ρ c (Proc.devRef .tc main_arg2)) = _
  rw [h.feat, hagg, h.weights]

/-! ## The walk -/

/-- THE RESULT BUFFER at the last boundary: five layers from the initial features. -/
theorem result_fold :
    W10 m ρ c (Proc.devRef .tc main_v81)
      = layerK (m ((c : Thread nD τ).loc main_arg0)) (m ((c : Thread nD τ).loc main_arg1)) (m ((c : Thread nD τ).loc main_arg2))
        (layerK (m ((c : Thread nD τ).loc main_arg0)) (m ((c : Thread nD τ).loc main_arg1)) (m ((c : Thread nD τ).loc main_arg2))
        (layerK (m ((c : Thread nD τ).loc main_arg0)) (m ((c : Thread nD τ).loc main_arg1)) (m ((c : Thread nD τ).loc main_arg2))
        (layerK (m ((c : Thread nD τ).loc main_arg0)) (m ((c : Thread nD τ).loc main_arg1)) (m ((c : Thread nD τ).loc main_arg2))
        (layerK (m ((c : Thread nD τ).loc main_arg0)) (m ((c : Thread nD τ).loc main_arg1)) (m ((c : Thread nD τ).loc main_arg2))
          (m ((c : Thread nD τ).loc main_arg0)))))) := by
  have k1 : Kept (W1 m ρ c) (m ((c : Thread nD τ).loc main_arg0)) (m ((c : Thread nD τ).loc main_arg2))
      (srcOf (m ((c : Thread nD τ).loc main_arg1))) (dstOf (m ((c : Thread nD τ).loc main_arg1)))
      (invDegOf (dstOf (m ((c : Thread nD τ).loc main_arg1)))) := kept0 (W0 m ρ c)
  have a1 : W1 m ρ c (Proc.devRef .tc main_v24) = aggMul (m ((c : Thread nD τ).loc main_arg0)) (srcOf (m ((c : Thread nD τ).loc main_arg1)))
      (dstOf (m ((c : Thread nD τ).loc main_arg1))) (invDegOf (dstOf (m ((c : Thread nD τ).loc main_arg1)))) := s0_agg (W0 m ρ c)
  have o1 := out_r0 m ρ c k1 _ a1
  have k2 := kept_r0 m ρ c k1
  have k3 : Kept (W3 m ρ c) _ _ _ _ _ := kept_s1 (W2 m ρ c) k2
  have a3 : W3 m ρ c (Proc.devRef .tc main_v38) = _ := (s1_agg (W2 m ρ c)).trans (by rw [o1, k2.src, k2.dst, k2.inv])
  have o2 := out_r1 m ρ c k3 _ a3
  have k4 := kept_r1 m ρ c k3
  have k5 : Kept (W5 m ρ c) _ _ _ _ _ := kept_s2 (W4 m ρ c) k4
  have a5 : W5 m ρ c (Proc.devRef .tc main_v52) = _ := (s2_agg (W4 m ρ c)).trans (by rw [o2, k4.src, k4.dst, k4.inv])
  have o3 := out_r2 m ρ c k5 _ a5
  have k6 := kept_r2 m ρ c k5
  have k7 : Kept (W7 m ρ c) _ _ _ _ _ := kept_s3 (W6 m ρ c) k6
  have a7 : W7 m ρ c (Proc.devRef .tc main_v66) = _ := (s3_agg (W6 m ρ c)).trans (by rw [o3, k6.src, k6.dst, k6.inv])
  have o4 := out_r3 m ρ c k7 _ a7
  have k8 := kept_r3 m ρ c k7
  have k9 : Kept (W9 m ρ c) _ _ _ _ _ := kept_s4 (W8 m ρ c) k8
  have a9 : W9 m ρ c (Proc.devRef .tc main_v80) = _ := (s4_agg (W8 m ρ c)).trans (by rw [o4, k8.src, k8.dst, k8.inv])
  exact out_r4 m ρ c k9 _ a9

end Cert.KernelIdeal.Whole

end
-- ==== Proof.RefSide.lean ====
/-
  The reference, layer by layer.

  The reference is five applications of one layer to the running features `Y`, started at the initial features:
  the mean aggregation of `Y` over the edges (the neighbour sum divided by the clamped degree), the mix with the
  initial features, the product with the weight matrix, the clamp at zero — all as whole-array host operations.
  Here: that layer as one function (`layerR`), the reference's generated result term as its fivefold iterate, and
  the layer read entry by entry: it is `Cert.Gcn.mix` of the initial features, the mean and the weights (a host
  matrix product at the ideal values is the plain sum over the contracted axis).
-/
import proofs.«107420_j10050223473328_1_alg».proof.Proof.Gen.ReferenceIdeal.Run
import proofs.«107420_j10050223473328_1_alg».proof.Proof.Agg
import proofs.«107420_j10050223473328_1_alg».proof.Proof.Layer

noncomputable section

namespace Cert.RefSide

open Idealize.ShloMosaic Idealize.ShloMosaic.TcCoe Idealize.SL.Sem Idealize.ShloMosaic.ValueIdx
open Cert.ReferenceIdeal Cert.ReferenceIdeal.Facts₀ Cert.Gcn

section AnyInstance

variable {F : FTy → Type} [FloatOps F]

/-- One layer of the reference on the running features `Y`. -/
def layerR (x0 : (⟨S50000x256, .f32⟩ : BufTy).Contents (Elt F)) (e : (⟨S2x300000, .i32⟩ : BufTy).Contents (Elt F))
    (W : (⟨S256x256, .f32⟩ : BufTy).Contents (Elt F)) (Y : (⟨S50000x256, .f32⟩ : BufTy).Contents (Elt F)) :
    (⟨S50000x256, .f32⟩ : BufTy).Contents (Elt F) :=
  maximumf
    (Host.dotGeneral dot_S50000x256_S256x256_S50000x256_1_0_0_1_n_n none
      (addf (mulf (broadcastInDim S50000x256 ![] bcast_S_S50000x256 (constant S_ .f32 0x3DCCCCCD#32)) x0)
        (mulf (broadcastInDim S50000x256 ![] bcast_S_S50000x256 (constant S_ .f32 0x3F666666#32))
          (aggDiv Y (srcOf e) (dstOf e) (degOf (dstOf e)))))
      W)
    (broadcastInDim S50000x256 ![] bcast_S_S50000x256 (constant S_ .f32 0x00000000#32))

set_option maxRecDepth 16384 in
/-- The reference's result term is the layer applied five times to the initial features. -/
theorem result_iterate (m : (ℓ : Loc nD τ sig) → Buf (Elt F) ℓ) (c : Dev nD) :
    Cert.ReferenceIdeal.Value.res_main_v149 m c
      = layerR (m ((c.tc : Thread nD τ).loc main_arg0)) (m ((c.tc : Thread nD τ).loc main_arg1)) (m ((c.tc : Thread nD τ).loc main_arg2))
        (layerR (m ((c.tc : Thread nD τ).loc main_arg0)) (m ((c.tc : Thread nD τ).loc main_arg1)) (m ((c.tc : Thread nD τ).loc main_arg2))
        (layerR (m ((c.tc : Thread nD τ).loc main_arg0)) (m ((c.tc : Thread nD τ).loc main_arg1)) (m ((c.tc : Thread nD τ).loc main_arg2))
        (layerR (m ((c.tc : Thread nD τ).loc main_arg0)) (m ((c.tc : Thread nD τ).loc main_arg1)) (m ((c.tc : Thread nD τ).loc main_arg2))
        (layerR (m ((c.tc : Thread nD τ).loc main_arg0)) (m ((c.tc : Thread nD τ).loc main_arg1)) (m ((c.tc : Thread nD τ).loc main_arg2))
          (m ((c.tc : Thread nD τ).loc main_arg0)))))) := by
  unfold Cert.ReferenceIdeal.Value.res_main_v149
  rfl

end AnyInstance

/-- The printed dimension numbers of the reference's matrix product are the plain ones. -/
theorem dot_plain : dot_S50000x256_S256x256_S50000x256_1_0_0_1_n_n = DotDims.plain 50000 256 256 := rfl

/-- A splat of a scalar constant reads the constant everywhere. -/
theorem splat_apply (b : BitVec 32) (i : S50000x256.Idx) :
    broadcastInDim S50000x256 ![] bcast_S_S50000x256 (constant (F := Ideal) S_ .f32 b) i = Ideal.ofBits .f32 b :=
  broadcastInDim_apply _ bcast_S_S50000x256 (constant (F := Ideal) S_ .f32 b) i ix0 (fun a => a.elim0)

/-- THE REFERENCE'S LAYER, entry by entry: the mix of the initial features with the mean of the running features,
    times the weights, clamped at zero. -/
theorem layerR_eq_mix (x0 : (⟨S50000x256, .f32⟩ : BufTy).Contents (Elt Ideal)) (e : (⟨S2x300000, .i32⟩ : BufTy).Contents (Elt Ideal))
    (W : (⟨S256x256, .f32⟩ : BufTy).Contents (Elt Ideal)) (Y : (⟨S50000x256, .f32⟩ : BufTy).Contents (Elt Ideal)) :
    layerR (F := Ideal) x0 e W Y = mix x0 (aggDiv Y (srcOf e) (dstOf e) (degOf (dstOf e))) W := by
  funext i
  obtain ⟨r, q, rfl⟩ : ∃ (r : Fin 50000) (q : Fin 256), i = ix2 r q := ⟨i 0, i 1, eq_ix2 i⟩
  unfold layerR
  rw [dot_plain, mix_ix2]
  unfold mixAt
  refine (maximumf_apply _ _ (ix2 r q)).trans ?_
  rw [splat_apply]
  refine congrArg (max · c0) ?_
  refine (Cert.Lib.plain_dotGeneral_apply 50000 256 256 none _ _ r q).trans ?_
  refine Finset.sum_congr rfl fun k _ => ?_
  refine congrArg (· * W (ix2 k q)) ?_
  show broadcastInDim S50000x256 ![] bcast_S_S50000x256 (constant (F := Ideal) S_ .f32 0x3DCCCCCD#32) (ix2 r k) * x0 (ix2 r k)
      + broadcastInDim S50000x256 ![] bcast_S_S50000x256 (constant (F := Ideal) S_ .f32 0x3F666666#32) (ix2 r k) * _ = _
  rw [splat_apply, splat_apply]

end Cert.RefSide

end
-- ==== Proof.lean ====
/-
  Five graph-convolution layers: the tiled kernel program against the whole-array reference, on the extended reals.

  Both programs start from node features `x0` (50000 × 256), an edge list `e` (2 × 300000 node numbers) and one weight
  matrix `W` (256 × 256), and apply five times, to running features `Y` started at `x0`,
      Y ↦ max ((α·x0 + β·mean(Y)) · W) 0,
  where `mean(Y)` adds, into each destination node's row, the rows of `Y` at the sources of the edges ending there, and
  divides by the number of such edges (at least one), and `α`, `β` are the single-precision words nearest 0.1 and 0.9.

  The reference does all of it with whole-array host operations and DIVIDES the neighbour sum by the clamped degree.
  The kernel program computes the reciprocal of the clamped degree once, MULTIPLIES the neighbour sum by it on the host, and
  runs the mix, the matrix product and the clamp of each layer as a launch over 25 row blocks of 2000 rows, the operands
  rounded to a shorter float format on the way into the product.

  On the extended reals a change of float format is the identity; a product into a zero accumulator and the host's
  contraction are the same sum over the 256 inner coordinates; a layer's row depends only on the same row of its feature
  operands, so the 25 blocks a launch writes back tile the layer's whole-array output (`Proof/Region*.lean`); and
  `s · (1 / d) = s / d` whenever `d ≠ 0`, which a degree clamped at one is (`Proof/Agg.lean`). The gather and the
  scatter-add are the same host operations on both sides and are never opened. So each layer is one function on both
  sides (`layer_eq`), and so is its fivefold iterate. No finiteness of the inputs is used: none of these laws needs it.

  The kernel program's run with its result named is `Proof/KernelRun.lean`; the result read through the ten segment
  boundaries is `Proof/Fold.lean` over `Proof/Stretches.lean` (the host stretches) and `Proof/Region*.lean` (the
  launches); the reference's generated run, read as five layers, is `Proof/RefSide.lean`.
-/
import proofs.«107420_j10050223473328_1_alg».proof.Defs
import proofs.«107420_j10050223473328_1_alg».proof.Proof.Gen.Kernel
import proofs.«107420_j10050223473328_1_alg».proof.Proof.Gen.Kernel.Skeleton
import proofs.«107420_j10050223473328_1_alg».proof.Proof.Gen.Kernel.Launch
import proofs.«107420_j10050223473328_1_alg».proof.Proof.Gen.Kernel.Points
import proofs.«107420_j10050223473328_1_alg».proof.Proof.Gen.Kernel.Frame
import proofs.«107420_j10050223473328_1_alg».proof.Proof.Gen.KernelIdeal
import proofs.«107420_j10050223473328_1_alg».proof.Proof.Gen.KernelIdeal.Skeleton
import proofs.«107420_j10050223473328_1_alg».proof.Proof.Gen.KernelIdeal.Launch
import proofs.«107420_j10050223473328_1_alg».proof.Proof.Gen.KernelIdeal.Points
import proofs.«107420_j10050223473328_1_alg».proof.Proof.Gen.KernelIdeal.Frame
import proofs.«107420_j10050223473328_1_alg».proof.Proof.Gen.ReferenceIdeal
import proofs.«107420_j10050223473328_1_alg».proof.Proof.Gen.ReferenceIdeal.Run
import proofs.«107420_j10050223473328_1_alg».proof.Proof.Gen.Pre_finite_inputs
import proofs.«107420_j10050223473328_1_alg».proof.Proof.KernelRun
import proofs.«107420_j10050223473328_1_alg».proof.Proof.Fold
import proofs.«107420_j10050223473328_1_alg».proof.Proof.RefSide
import Idealize.ShloMosaic.Adequacy
import Idealize.ShloMosaic.Init

noncomputable section

namespace Cert.Proof

open Idealize.ShloMosaic Idealize.ShloMosaic.TcCoe Idealize.SL.Sem

/-- ONE LAYER IS ONE FUNCTION on both sides: the kernel program's mean by the reciprocal degree is the reference's mean
    by the degree, and the reference's whole-array layer is the same entry-by-entry mix. -/
theorem layer_eq (x0 : (⟨Cert.KernelIdeal.S50000x256, .f32⟩ : BufTy).Contents (Elt Ideal))
    (e : (⟨Cert.KernelIdeal.S2x300000, .i32⟩ : BufTy).Contents (Elt Ideal))
    (wt : (⟨Cert.KernelIdeal.S256x256, .f32⟩ : BufTy).Contents (Elt Ideal))
    (X : (⟨Cert.KernelIdeal.S50000x256, .f32⟩ : BufTy).Contents (Elt Ideal)) :
    Cert.RefSide.layerR (F := Ideal) x0 e wt X = Cert.KernelIdeal.Whole.layerK x0 e wt X := by
  unfold Cert.KernelIdeal.Whole.layerK
  rw [Cert.Gcn.aggMul_eq_aggDiv, Cert.RefSide.layerR_eq_mix]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end at the fivefold layer of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v81),
    Cert.KernelIdeal.Whole.run_fold m ρ, ?_⟩
  refine (θ_run Cert.ReferenceIdeal.defs _ _).mono (fun _ h c => ⟨(h c).1.trans ?_, (h c).2⟩)
    (Cert.ReferenceIdeal.Value.run (F := Ideal) m' ρ')
  rw [Cert.RefSide.result_iterate, (hagree c).1, (hagree c).2.1, (hagree c).2.2]
  simp only [layer_eq]
  exact (Cert.KernelIdeal.Whole.result_fold m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
